-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x28x28x512 : Shape := ⟨4, ![128, 28, 28, 512]⟩
abbrev S128x512 : Shape := ⟨2, ![128, 512]⟩
abbrev S_ : Shape := ⟨0, ![]⟩
abbrev S128x28x28 : Shape := ⟨3, ![128, 28, 28]⟩
abbrev S128 : Shape := ⟨1, ![128]⟩

class Facts : Prop where
  bcast_S_S128x28x28x512 : S_.BroadcastsInDim S128x28x28x512 (![] : Fin 0 → Fin S128x28x28x512.rank)
  reducesTo_S128x28x28x512_S_d0_1_2_3 : S128x28x28x512.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  reducesTo_S128x28x28x512_S128x28x28_d3 : S128x28x28x512.ReducesTo [3] S128x28x28
  bcast_S_S128x28x28 : S_.BroadcastsInDim S128x28x28 (![] : Fin 0 → Fin S128x28x28.rank)
  reducesTo_S128x28x28_S_d0_1_2 : S128x28x28.ReducesTo [0, 1, 2] S_
  reducesTo_S128x512_S128_d1 : S128x512.ReducesTo [1] S128
  bcast_S_S128 : S_.BroadcastsInDim S128 (![] : Fin 0 → Fin S128.rank)
  reducesTo_S128_S_d0 : S128.ReducesTo [0] S_

variable [Facts]

def fn_part1 {F : FTy → Type} [FloatOps F] (main_v14 : IVec S_ 1) (main_v15 : FVec F S128x512 .f32) (main_cst_5 : FVec F S_ .f32) : IVec S_ 1 :=
  let main_v16 : FVec F S128 .f32 := (fun x v => Host.reduceAdd x v reducesTo_S128x512_S128_d1 h_S_) main_v15 main_cst_5
  let main_cst_6 : FVec F S_ .f32 := constant S_ .f32 0x00000000#32
  let main_v17 : FVec F S128 .f32 := broadcastInDim S128 ![] bcast_S_S128 main_cst_6
  let main_v18 : IVec S128 1 := cmpf .ogt main_v16 main_v17
  let main_c_7 : IVec S_ 1 := constantI S_ 1 1#1
  let main_v19 : IVec S_ 1 := (fun x v => Host.reduce IntOp.andi x v reducesTo_S128_S_d0 h_S_) main_v18 main_c_7
  let main_v20 : IVec S_ 1 := andi main_v14 main_v19
  main_v20

def fn {F : FTy → Type} [FloatOps F] (main_arg0 : FVec F S128x28x28x512 .f32) (main_arg1 : FVec F S128x512 .f32) : IVec S_ 1 :=
  let main_v0 : FVec F S128x28x28x512 .f32 := Host.absf main_arg0
  let main_cst : FVec F S_ .f32 := constant S_ .f32 0x7F800000#32
  let main_v1 : FVec F S128x28x28x512 .f32 := broadcastInDim S128x28x28x512 ![] bcast_S_S128x28x28x512 main_cst
  let main_v2 : IVec S128x28x28x512 1 := cmpf .olt main_v0 main_v1
  let main_c : IVec S_ 1 := constantI S_ 1 1#1
  let main_v3 : IVec S_ 1 := (fun x v => Host.reduce IntOp.andi x v reducesTo_S128x28x28x512_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x28x28x512 .f32 := mulf main_arg0 main_arg0
  let main_cst_2 : FVec F S_ .f32 := constant S_ .f32 0x00000000#32
  let main_v10 : FVec F S128x28x28 .f32 := (fun x v => Host.reduceAdd x v reducesTo_S128x28x28x512_S128x28x28_d3 h_S_) main_v9 main_cst_2
  let main_cst_3 : FVec F S_ .f32 := constant S_ .f32 0x00000000#32
  let main_v11 : FVec F S128x28x28 .f32 := broadcastInDim S128x28x28 ![] bcast_S_S128x28x28 main_cst_3
  let main_v12 : IVec S128x28x28 1 := cmpf .ogt main_v10 main_v11
  let main_c_4 : IVec S_ 1 := constantI S_ 1 1#1
  let main_v13 : IVec S_ 1 := (fun x v => Host.reduce IntOp.andi x v reducesTo_S128x28x28_S_d0_1_2 h_S_) main_v12 main_c_4
  let main_v14 : IVec S_ 1 := andi main_v8 main_v13
  let main_v15 : FVec F S128x512 .f32 := mulf main_arg1 main_arg1
  let main_cst_5 : FVec F S_ .f32 := constant S_ .f32 0x00000000#32
  fn_part1 (F := F) main_v14 main_v15 main_cst_5
-- ==== Kernel.lean ====
abbrev S128x28x28x512 : Shape := ⟨4, ![128, 28, 28, 512]⟩
abbrev S128x512 : Shape := ⟨2, ![128, 512]⟩
abbrev S128x784x512 : Shape := ⟨3, ![128, 784, 512]⟩
abbrev S128x128x784 : Shape := ⟨3, ![128, 128, 784]⟩
abbrev S1x784x512 : Shape := ⟨3, ![1, 784, 512]⟩
abbrev S1x128x784 : Shape := ⟨3, ![1, 128, 784]⟩
abbrev S784x512 : Shape := ⟨2, ![784, 512]⟩
abbrev S128 : Shape := ⟨1, ![128]⟩
abbrev S128x1 : Shape := ⟨2, ![128, 1]⟩
abbrev S784 : Shape := ⟨1, ![784]⟩
abbrev S784x1 : Shape := ⟨2, ![784, 1]⟩
abbrev S128x784 : Shape := ⟨2, ![128, 784]⟩
abbrev S1x784 : Shape := ⟨2, ![1, 784]⟩

abbrev nBuf : Space → Nat
  | .hbm => 4
  | .vmem => 5
  | .smem => 0
  | _ => 0

abbrev bufTy : (tb : Table) → Fin (tcTables nBuf tb) → BufTy
  | .hbm, ⟨0, _⟩ => ⟨S128x28x28x512, .f32⟩
  | .hbm, ⟨1, _⟩ => ⟨S128x512, .f32⟩
  | .hbm, ⟨2, _⟩ => ⟨S128x784x512, .f32⟩
  | .hbm, ⟨3, _⟩ => ⟨S128x128x784, .f32⟩
  | .local _ .vmem, ⟨0, _⟩ => ⟨S128x512, .f32⟩
  | .local _ .vmem, ⟨1, _⟩ => ⟨S1x784x512, .f32⟩
  | .local _ .vmem, ⟨2, _⟩ => ⟨S1x784x512, .f32⟩
  | .local _ .vmem, ⟨3, _⟩ => ⟨S1x128x784, .f32⟩
  | .local _ .vmem, ⟨4, _⟩ => ⟨S1x128x784, .f32⟩
  | _, _ => ⟨S128x28x28x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x784x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x28x28x512_S128x784x512 : S128x28x28x512.ShapeCasts S128x784x512
  inb_S128x512_S128x512_0_0 : ∀ a, (![0, 0] : Fin 2 → Nat) a + S128x512.size a ≤ S128x512.size a
  h_S128x512 : 0 < S128x512.numel
  inb_S1x784x512_S1x784x512_0_0_0 : ∀ a, (![0, 0, 0] : Fin 3 → Nat) a + S1x784x512.size a ≤ S1x784x512.size a
  h_S1x784x512 : 0 < S1x784x512.numel
  shapeCasts_S1x784x512_S784x512 : S1x784x512.ShapeCasts S784x512
  reduces_S128x512_S128 : S128x512.Reduces [1] S128
  shapeCasts_S128_S128x1 : S128.ShapeCasts S128x1
  broadcasts_S128x1_S128x512 : S128x1.Broadcasts S128x512
  reduces_S784x512_S784 : S784x512.Reduces [1] S784
  shapeCasts_S784_S784x1 : S784.ShapeCasts S784x1
  broadcasts_S784x1_S784x512 : S784x1.Broadcasts S784x512
  bitsLt_bf16_f32 : FTy.bits .bf16 < FTy.bits .f32
  broadcasts_S128x1_S128x784 : S128x1.Broadcasts S128x784
  reduces_S128x784_S784 : S128x784.Reduces [0] S784
  shapeCasts_S784_S1x784 : S784.ShapeCasts S1x784
  broadcasts_S1x784_S128x784 : S1x784.Broadcasts S128x784
  reduces_S128x784_S128 : S128x784.Reduces [1] S128
  inb_S1x128x784_S1x128x784_0_0_0 : ∀ a, (![0, 0, 0] : Fin 3 → Nat) a + S1x128x784.size a ≤ S1x128x784.size a
  h_S1x128x784 : 0 < S1x128x784.numel
  shapeCasts_S1x128x784_S128x784 : S1x128x784.ShapeCasts S128x784
  shapeCasts_S128x784_S1x128x784 : S128x784.ShapeCasts S1x128x784
  dot_S128x512_S784x512_S128x784_1_1_0_0_n_n_wf : DotDims.WF S128x512 S784x512 S128x784 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x784x512.size a ≤ S128x784x512.size a
  hwx0_1 : ∀ i : grid0.Coords, EltTy.bits .f32 = 32 ∨ (Rect.block (s := S128x784x512) S1x784x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x784.size a ≤ S128x128x784.size a
  hwx0_2 : ∀ i : grid0.Coords, EltTy.bits .f32 = 32 ∨ (Rect.block (s := S128x128x784) S1x128x784.size (cc0_transform_2 i) (hinb0_2 i)).WholeWords (EltTy.packing .f32)

variable [Facts₀]

def dot_S128x512_S784x512_S128x784_1_1_0_0_n_n : DotDims S128x512 S784x512 S128x784 where
  lhsContracting := [1]
  rhsContracting := [1]
  lhsNonContracting := [0]
  rhsNonContracting := [0]
  lhsBatch := []
  rhsBatch := []
  wf := dot_S128x512_S784x512_S128x784_1_1_0_0_n_n_wf

abbrev win0_0 : Pipeline.Window sig grid0 :=
  Pipeline.Window.ofSpec (Memref.whole main_arg1) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x784x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x784.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x28x28x512 : Shape := ⟨4, ![128, 28, 28, 512]⟩
abbrev S128x512 : Shape := ⟨2, ![128, 512]⟩
abbrev S_ : Shape := ⟨0, ![]⟩
abbrev S128 : Shape := ⟨1, ![128]⟩
abbrev S128x1 : Shape := ⟨2, ![128, 1]⟩
abbrev S128x28x28 : Shape := ⟨3, ![128, 28, 28]⟩
abbrev S128x28x28x1 : Shape := ⟨4, ![128, 28, 28, 1]⟩
abbrev S128x784x512 : Shape := ⟨3, ![128, 784, 512]⟩
abbrev S128x784x128 : Shape := ⟨3, ![128, 784, 128]⟩
abbrev S128x128x784 : Shape := ⟨3, ![128, 128, 784]⟩
abbrev S1x1x784 : Shape := ⟨3, ![1, 1, 784]⟩
abbrev S1x1x128 : Shape := ⟨3, ![1, 1, 128]⟩
abbrev S128x1x128 : Shape := ⟨3, ![128, 1, 128]⟩
abbrev S128x1x784 : Shape := ⟨3, ![128, 1, 784]⟩
abbrev S128x128x1 : Shape := ⟨3, ![128, 128, 1]⟩

abbrev nBuf : Space → Nat
  | .hbm => 167
  | .vmem => 0
  | .smem => 0
  | _ => 0

abbrev hbmTy0_0 (i : Nat) : BufTy := match i % 128 with
  | 0 => ⟨S128x28x28x512, .f32⟩
  | 1 => ⟨S128x512, .f32⟩
  | 2 => ⟨S128x512, .f32⟩
  | 3 => ⟨S_, .f32⟩
  | 4 => ⟨S128, .f32⟩
  | 5 => ⟨S128x1, .f32⟩
  | 6 => ⟨S128x1, .f32⟩
  | 7 => ⟨S128x512, .f32⟩
  | 8 => ⟨S128x512, .f32⟩
  | 9 => ⟨S128x28x28x512, .f32⟩
  | 10 => ⟨S_, .f32⟩
  | 11 => ⟨S128x28x28, .f32⟩
  | 12 => ⟨S128x28x28x1, .f32⟩
  | 13 => ⟨S128x28x28x1, .f32⟩
  | 14 => ⟨S128x28x28x512, .f32⟩
  | 15 => ⟨S128x28x28x512, .f32⟩
  | 16 => ⟨S128x784x512, .f32⟩
  | 17 => ⟨S128x784x128, .f32⟩
  | 18 => ⟨S128x128x784, .f32⟩
  | 19 => ⟨S_, .f32⟩
  | 20 => ⟨S128x128x784, .f32⟩
  | 21 => ⟨S128x128x784, .f32⟩
  | 22 => ⟨S_, .f32⟩
  | 23 => ⟨S128x128x784, .f32⟩
  | 24 => ⟨S128x128x784, .f32⟩
  | 25 => ⟨S_, .f32⟩
  | 26 => ⟨S128x128x784, .f32⟩
  | 27 => ⟨S128x128x784, .f32⟩
  | 28 => ⟨S128x128x784, .f32⟩
  | 29 => ⟨S_, .f32⟩
  | 30 => ⟨S1x1x784, .f32⟩
  | 31 => ⟨S_, .f32⟩
  | 32 => ⟨S1x1x128, .f32⟩
  | 33 => ⟨S_, .f32⟩
  | 34 => ⟨S128x1x128, .f32⟩
  | 35 => ⟨S128x784x128, .f32⟩
  | 36 => ⟨S128x1x784, .f32⟩
  | 37 => ⟨S_, .f32⟩
  | 38 => ⟨S128x1x784, .f32⟩
  | 39 => ⟨S128x1x784, .f32⟩
  | 40 => ⟨S128x1x784, .f32⟩
  | 41 => ⟨S128x1x784, .f32⟩
  | 42 => ⟨S128x1x128, .f32⟩
  | 43 => ⟨S_, .f32⟩
  | 44 => ⟨S128x1x128, .f32⟩
  | 45 => ⟨S128x1x128, .f32⟩
  | 46 => ⟨S128x1x128, .f32⟩
  | 47 => ⟨S128x1x128, .f32⟩
  | 48 => ⟨S128x1x784, .f32⟩
  | 49 => ⟨S_, .f32⟩
  | 50 => ⟨S128x1x784, .f32⟩
  | 51 => ⟨S128x1x784, .f32⟩
  | 52 => ⟨S128x1x784, .f32⟩
  | 53 => ⟨S128x1x784, .f32⟩
  | 54 => ⟨S128x1x128, .f32⟩
  | 55 => ⟨S_, .f32⟩
  | 56 => ⟨S128x1x128, .f32⟩
  | 57 => ⟨S128x1x128, .f32⟩
  | 58 => ⟨S128x1x128, .f32⟩
  | 59 => ⟨S128x1x128, .f32⟩
  | 60 => ⟨S128x1x784, .f32⟩
  | 61 => ⟨S_, .f32⟩
  | 62 => ⟨S128x1x784, .f32⟩
  | 63 => ⟨S128x1x784, .f32⟩
  | 64 => ⟨S128x1x784, .f32⟩
  | 65 => ⟨S128x1x784, .f32⟩
  | 66 => ⟨S128x1x128, .f32⟩
  | 67 => ⟨S_, .f32⟩
  | 68 => ⟨S128x1x128, .f32⟩
  | 69 => ⟨S128x1x128, .f32⟩
  | 70 => ⟨S128x1x128, .f32⟩
  | 71 => ⟨S128x1x128, .f32⟩
  | 72 => ⟨S128x1x784, .f32⟩
  | 73 => ⟨S_, .f32⟩
  | 74 => ⟨S128x1x784, .f32⟩
  | 75 => ⟨S128x1x784, .f32⟩
  | 76 => ⟨S128x1x784, .f32⟩
  | 77 => ⟨S128x1x784, .f32⟩
  | 78 => ⟨S128x1x128, .f32⟩
  | 79 => ⟨S_, .f32⟩
  | 80 => ⟨S128x1x128, .f32⟩
  | 81 => ⟨S128x1x128, .f32⟩
  | 82 => ⟨S128x1x128, .f32⟩
  | 83 => ⟨S128x1x128, .f32⟩
  | 84 => ⟨S128x1x784, .f32⟩
  | 85 => ⟨S_, .f32⟩
  | 86 => ⟨S128x1x784, .f32⟩
  | 87 => ⟨S128x1x784, .f32⟩
  | 88 => ⟨S128x1x784, .f32⟩
  | 89 => ⟨S128x1x784, .f32⟩
  | 90 => ⟨S128x1x128, .f32⟩
  | 91 => ⟨S_, .f32⟩
  | 92 => ⟨S128x1x128, .f32⟩
  | 93 => ⟨S128x1x128, .f32⟩
  | 94 => ⟨S128x1x128, .f32⟩
  | 95 => ⟨S128x1x128, .f32⟩
  | 96 => ⟨S128x1x784, .f32⟩
  | 97 => ⟨S_, .f32⟩
  | 98 => ⟨S128x1x784, .f32⟩
  | 99 => ⟨S128x1x784, .f32⟩
  | 100 => ⟨S128x1x784, .f32⟩
  | 101 => ⟨S128x1x784, .f32⟩
  | 102 => ⟨S128x1x128, .f32⟩
  | 103 => ⟨S_, .f32⟩
  | 104 => ⟨S128x1x128, .f32⟩
  | 105 => ⟨S128x1x128, .f32⟩
  | 106 => ⟨S128x1x128, .f32⟩
  | 107 => ⟨S128x1x128, .f32⟩
  | 108 => ⟨S128x1x784, .f32⟩
  | 109 => ⟨S_, .f32⟩
  | 110 => ⟨S128x1x784, .f32⟩
  | 111 => ⟨S128x1x784, .f32⟩
  | 112 => ⟨S128x1x784, .f32⟩
  | 113 => ⟨S128x1x784, .f32⟩
  | 114 => ⟨S128x1x128, .f32⟩
  | 115 => ⟨S_, .f32⟩
  | 116 => ⟨S128x1x128, .f32⟩
  | 117 => ⟨S128x1x128, .f32⟩
  | 118 => ⟨S128x1x128, .f32⟩
  | 119 => ⟨S128x1x128, .f32⟩
  | 120 => ⟨S128x1x784, .f32⟩
  | 121 => ⟨S_, .f32⟩
  | 122 => ⟨S128x1x784, .f32⟩
  | 123 => ⟨S128x1x784, .f32⟩
  | 124 => ⟨S128x1x784, .f32⟩
  | 125 => ⟨S128x1x784, .f32⟩
  | 126 => ⟨S128x1x128, .f32⟩
  | 127 => ⟨S_, .f32⟩
  | _ => ⟨S128x28x28x512, .f32⟩

abbrev hbmTy0_1 (i : Nat) : BufTy := match i % 128 with
  | 0 => ⟨S128x1x128, .f32⟩
  | 1 => ⟨S128x1x128, .f32⟩
  | 2 => ⟨S128x1x128, .f32⟩
  | 3 => ⟨S128x1x128, .f32⟩
  | 4 => ⟨S128x1x784, .f32⟩
  | 5 => ⟨S_, .f32⟩
  | 6 => ⟨S128x1x784, .f32⟩
  | 7 => ⟨S128x1x784, .f32⟩
  | 8 => ⟨S128x1x784, .f32⟩
  | 9 => ⟨S128x1x784, .f32⟩
  | 10 => ⟨S128x1x128, .f32⟩
  | 11 => ⟨S_, .f32⟩
  | 12 => ⟨S128x1x128, .f32⟩
  | 13 => ⟨S128x1x128, .f32⟩
  | 14 => ⟨S128x1x128, .f32⟩
  | 15 => ⟨S128x1x128, .f32⟩
  | 16 => ⟨S128x1x784, .f32⟩
  | 17 => ⟨S_, .f32⟩
  | 18 => ⟨S128x1x784, .f32⟩
  | 19 => ⟨S128x1x784, .f32⟩
  | 20 => ⟨S128x1x784, .f32⟩
  | 21 => ⟨S128x1x784, .f32⟩
  | 22 => ⟨S128x1x128, .f32⟩
  | 23 => ⟨S_, .f32⟩
  | 24 => ⟨S128x1x128, .f32⟩
  | 25 => ⟨S128x1x128, .f32⟩
  | 26 => ⟨S128x1x128, .f32⟩
  | 27 => ⟨S128x1x128, .f32⟩
  | 28 => ⟨S128x1x784, .f32⟩
  | 29 => ⟨S_, .f32⟩
  | 30 => ⟨S128x1x784, .f32⟩
  | 31 => ⟨S128x1x784, .f32⟩
  | 32 => ⟨S128x1x784, .f32⟩
  | 33 => ⟨S128x1x784, .f32⟩
  | 34 => ⟨S128x128x1, .f32⟩
  | 35 => ⟨S128x128x784, .f32⟩
  | 36 => ⟨S128x128x784, .f32⟩
  | 37 => ⟨S128x128x784, .f32⟩
  | 38 => ⟨S128x128x784, .f32⟩
  | _ => ⟨S128x28x28x512, .f32⟩

abbrev hbmTy (i : Nat) : BufTy := match i / 128 with
  | 0 => hbmTy0_0 i
  | 1 => hbmTy0_1 i
  | _ => ⟨S128x28x28x512, .f32⟩

abbrev bufTy : (tb : Table) → Fin (tcTables nBuf tb) → BufTy
  | .hbm, ⟨i, _⟩ => hbmTy i
  | _, _ => ⟨S128x28x28x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_12 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_14 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_16 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_17 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_18 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_19 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_20 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_21 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_22 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_23 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_24 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_25 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_26 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_27 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩

abbrev nD : Nat := 1
abbrev τ : Topo := Topo.v7x

variable {F : FTy → Type} [FloatOps F]

class Facts₀ : Prop where
  reducesTo_S128x512_S128_d1 : S128x512.ReducesTo [1] S128
  h_S_ : 0 < S_.numel
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S128x28x28x512_S128x28x28_d3 : S128x28x28x512.ReducesTo [3] S128x28x28
  bcast_S128x28x28_S128x28x28x1_0_1_2 : S128x28x28.BroadcastsInDim S128x28x28x1 (![0, 1, 2] : Fin 3 → Fin S128x28x28x1.rank)
  bcast_S128x28x28x1_S128x28x28x512_0_1_2_3 : S128x28x28x1.BroadcastsInDim S128x28x28x512 (![0, 1, 2, 3] : Fin 4 → Fin S128x28x28x512.rank)
  shapeCasts_S128x28x28x512_S128x784x512 : S128x28x28x512.ShapeCasts S128x784x512
  transposes_S128x784x128_S128x128x784_0_2_1 : S128x784x128.Transposes [0, 2, 1] S128x128x784
  bcast_S_S128x128x784 : S_.BroadcastsInDim S128x128x784 (![] : Fin 0 → Fin S128x128x784.rank)
  bcast_S_S1x1x784 : S_.BroadcastsInDim S1x1x784 (![] : Fin 0 → Fin S1x1x784.rank)
  bcast_S_S1x1x128 : S_.BroadcastsInDim S1x1x128 (![] : Fin 0 → Fin S1x1x128.rank)
  bcast_S_S128x1x128 : S_.BroadcastsInDim S128x1x128 (![] : Fin 0 → Fin S128x1x128.rank)
  transposes_S128x128x784_S128x784x128_0_2_1 : S128x128x784.Transposes [0, 2, 1] S128x784x128
  bcast_S_S128x1x784 : S_.BroadcastsInDim S128x1x784 (![] : Fin 0 → Fin S128x1x784.rank)
  bcast_S1x1x784_S128x1x784_0_1_2 : S1x1x784.BroadcastsInDim S128x1x784 (![0, 1, 2] : Fin 3 → Fin S128x1x784.rank)
  bcast_S1x1x128_S128x1x128_0_1_2 : S1x1x128.BroadcastsInDim S128x1x128 (![0, 1, 2] : Fin 3 → Fin S128x1x128.rank)
  transposes_S128x1x128_S128x128x1_0_2_1 : S128x1x128.Transposes [0, 2, 1] S128x128x1
  bcast_S128x128x1_S128x128x784_0_1_2 : S128x128x1.BroadcastsInDim S128x128x784 (![0, 1, 2] : Fin 3 → Fin S128x128x784.rank)
  bcast_S128x1x784_S128x128x784_0_1_2 : S128x1x784.BroadcastsInDim S128x128x784 (![0, 1, 2] : Fin 3 → Fin S128x128x784.rank)
  dot_S128x784x512_S128x512_S128x784x128_2_1_01_0_n_n_wf : DotDims.WF S128x784x512 S128x512 S128x784x128 [2] [1] [0, 1] [0] [] []
  dot_S128x1x128_S128x128x784_S128x1x784_2_1_1_2_0_0_wf : DotDims.WF S128x1x128 S128x128x784 S128x1x784 [2] [1] [1] [2] [0] [0]
  dot_S128x1x784_S128x784x128_S128x1x128_2_1_1_2_0_0_wf : DotDims.WF S128x1x784 S128x784x128 S128x1x128 [2] [1] [1] [2] [0] [0]

variable [Facts₀]

def dot_S128x784x512_S128x512_S128x784x128_2_1_01_0_n_n : DotDims S128x784x512 S128x512 S128x784x128 where
  lhsContracting := [2]
  rhsContracting := [1]
  lhsNonContracting := [0, 1]
  rhsNonContracting := [0]
  lhsBatch := []
  rhsBatch := []
  wf := dot_S128x784x512_S128x512_S128x784x128_2_1_01_0_n_n_wf
def dot_S128x1x128_S128x128x784_S128x1x784_2_1_1_2_0_0 : DotDims S128x1x128 S128x128x784 S128x1x784 where
  lhsContracting := [2]
  rhsContracting := [1]
  lhsNonContracting := [1]
  rhsNonContracting := [2]
  lhsBatch := [0]
  rhsBatch := [0]
  wf := dot_S128x1x128_S128x128x784_S128x1x784_2_1_1_2_0_0_wf
def dot_S128x1x784_S128x784x128_S128x1x128_2_1_1_2_0_0 : DotDims S128x1x784 S128x784x128 S128x1x128 where
  lhsContracting := [2]
  rhsContracting := [1]
  lhsNonContracting := [1]
  rhsNonContracting := [2]
  lhsBatch := [0]
  rhsBatch := [0]
  wf := dot_S128x1x784_S128x784x128_S128x1x128_2_1_1_2_0_0_wf

class Facts : Prop extends Facts₀ where

variable [Facts]
-- ==== Proof.Rows.lean ====
/-
  The two argument arrays as families of rows.

  The support matrix has 128 rows of 512 entries.  The feature array has, for each of the 128 batch elements, a 28 × 28
  grid of positions each carrying 512 entries; flattened row-major, position `n < 784` of the grid is `(n / 28, n % 28)`,
  so a batch element has 784 rows of 512 entries.
-/
import Idealize.ShloMosaic.Lib.ValueIdx

noncomputable section

namespace Cert.Rows

open Idealize.ShloMosaic Idealize.ShloMosaic.ValueIdx

/-- Row `s` of the support matrix, entry `d`. -/
def supportRows (a : (⟨2, ![128, 512]⟩ : Shape).Idx → EReal) : Fin 128 → Fin 512 → EReal :=
  fun s d => a (ix2 s d)

/-- Row `n` of batch element `b` of the feature array, entry `d`: grid position `(n / 28, n % 28)`. -/
def featureRows (a : (⟨4, ![128, 28, 28, 512]⟩ : Shape).Idx → EReal) (b : Fin 128) : Fin 784 → Fin 512 → EReal :=
  fun n d => a (ix4 b ⟨n.val / 28, by have := n.isLt; omega⟩ ⟨n.val % 28, Nat.mod_lt _ (by decide)⟩ d)

end Cert.Rows

end
-- ==== Proof.Sinkhorn.lean ====
/-
  Entropic optimal transport by Sinkhorn's iteration, as pure functions on the extended reals.

  Given 128 support rows `t s` and 784 feature rows `f n` (512 entries each), the cost of matching `s` to `n` is the
  squared distance of the two rows after scaling each to unit length, `2 - 2·cos(t s, f n)`, and the Gibbs kernel is
  `K s n = exp(-10·cost)`.  Sinkhorn's iteration looks for scalings `u` (one per support row) and `v` (one per feature row)
  with `u s · K s n · v n` having row sums `1/128` and column sums `1/784`: from `u = 1` it alternates
  `v n = (1/784) / (Σ_s u s · K s n + ε)` and `u s = (1/128) / (Σ_n K s n · v n + ε)` ten times, computes `v` once more, and
  returns the plan `(u s · K s n) · v n`.  The three constants are the binary32 values the programs carry (the float
  nearest `1/784`, the exact `1/128`, and `ε = 2⁻⁵²`); they appear identically on both sides and are never evaluated.

  A row is scaled to unit length either by multiplying with the reciprocal root of its sum of squares or by dividing by
  the root of it.  On the extended reals the two agree whenever the sum of squares is positive — at `+∞` both give `0` —
  and differ at `0` (`0·∞ = 0` against the undefined `0/0`), which is why positivity of every row's sum of squares is
  assumed where the two forms meet.
-/
import Idealize.ShloMosaic.PureOps.Ideal
import Idealize.ShloMosaic.PureOps.Ideal.Laws

noncomputable section

open scoped BigOperators

namespace Cert.Sinkhorn

open Idealize.ShloMosaic

/-! ## The constants, as the binary32 words both programs carry -/

/-- The mass of one feature row: the binary32 value nearest `1/784`. -/
def colMass : EReal := Ideal.ofBits .f32 0x3AA72F05#32
/-- The mass of one support row: `1/128`. -/
def rowMass : EReal := Ideal.ofBits .f32 0x3C000000#32
/-- The guard `ε = 2⁻⁵²` added to every denominator. -/
def guard : EReal := Ideal.ofBits .f32 0x25800000#32
/-- `1`, the initial scaling. -/
def one : EReal := Ideal.ofBits .f32 0x3F800000#32
/-- `2`. -/
def two : EReal := Ideal.ofBits .f32 0x40000000#32
/-- `-10`, minus the entropic weight. -/
def negTen : EReal := Ideal.ofBits .f32 0xC1200000#32

/-! ## The Gibbs kernel -/

/-- The cosine of the angle between support row `s` and feature row `n`: the inner product of the two rows, each
    multiplied by the reciprocal root of its sum of squares. -/
def cosine (t : Fin 128 → Fin 512 → EReal) (f : Fin 784 → Fin 512 → EReal) (s : Fin 128) (n : Fin 784) : EReal :=
  ∑ d : Fin 512, (t s d * Ideal.rsqrt (∑ e : Fin 512, t s e * t s e)) * (f n d * Ideal.rsqrt (∑ e : Fin 512, f n e * f n e))

/-- `K s n = exp(-10 · (2 - 2 · cos))`. -/
def gibbs (t : Fin 128 → Fin 512 → EReal) (f : Fin 784 → Fin 512 → EReal) (s : Fin 128) (n : Fin 784) : EReal :=
  Ideal.exp (negTen * (two - two * cosine t f s n))

/-! ## Sinkhorn's two scalings, the trip, and the plan -/

/-- The column scaling from a row scaling: `v n = colMass / (Σ_s u s · K s n + ε)`. -/
def colScale (K : Fin 128 → Fin 784 → EReal) (u : Fin 128 → EReal) : Fin 784 → EReal :=
  fun n => Ideal.div colMass ((∑ s : Fin 128, u s * K s n) + guard)

/-- The row scaling from a column scaling: `u s = rowMass / (Σ_n K s n · v n + ε)`. -/
def rowScale (K : Fin 128 → Fin 784 → EReal) (v : Fin 784 → EReal) : Fin 128 → EReal :=
  fun s => Ideal.div rowMass ((∑ n : Fin 784, K s n * v n) + guard)

/-- One trip of the iteration: a new column scaling, then a new row scaling from it. -/
def trip (K : Fin 128 → Fin 784 → EReal) (u : Fin 128 → EReal) : Fin 128 → EReal :=
  rowScale K (colScale K u)

/-- The plan from a row scaling: `(u s · K s n) · v n` with `v` the column scaling of `u`. -/
def planOf (K : Fin 128 → Fin 784 → EReal) (u : Fin 128 → EReal) (s : Fin 128) (n : Fin 784) : EReal :=
  (u s * K s n) * colScale K u n

/-- Ten trips from the constant scaling `1`, then the plan. -/
def plan (K : Fin 128 → Fin 784 → EReal) : Fin 128 → Fin 784 → EReal :=
  planOf K ((trip K)^[10] fun _ => one)

/-- The transport plan between the support rows and one batch element's feature rows. -/
def transport (t : Fin 128 → Fin 512 → EReal) (f : Fin 784 → Fin 512 → EReal) : Fin 128 → Fin 784 → EReal :=
  plan (gibbs t f)

/-! ## Scaling a row to unit length: the product with the reciprocal root is the quotient by the root -/

/-- For a positive sum of squares `ss` — a positive real, or `+∞`, where both sides are `0` — multiplying by
    `ss^(-1/2)` is dividing by `ss^(1/2)`. -/
theorem mul_rsqrt_eq_div_sqrt (x ss : EReal) (h : 0 < ss) : x * Ideal.rsqrt ss = Ideal.div x (Ideal.sqrt ss) := by
  induction ss using EReal.rec with
  | bot => exact absurd h (not_lt_bot)
  | top =>
    rw [Ideal.rsqrt_top, Ideal.sqrt_top, mul_zero]
    unfold Ideal.div
    rw [if_neg EReal.top_ne_zero, EReal.inv_top, mul_zero]
  | coe r =>
    have hr : 0 < r := EReal.coe_pos.1 h
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]

/-- The same with the factors of the inner product in the other order. -/
theorem div_sqrt_mul_div_sqrt (x y sx sy : EReal) (hx : 0 < sx) (hy : 0 < sy) :
    Ideal.div y (Ideal.sqrt sy) * Ideal.div x (Ideal.sqrt sx) = (x * Ideal.rsqrt sx) * (y * Ideal.rsqrt sy) := by
  rw [← mul_rsqrt_eq_div_sqrt x sx hx, ← mul_rsqrt_eq_div_sqrt y sy hy, mul_comm]

end Cert.Sinkhorn

end
-- ==== Proof.PreRows.lean ====
/-
  The precondition, read back as positivity of every row's sum of squares.

  The precondition is a conjunction of four statements, each "for every index, a comparison holds": every feature entry
  and every support entry has absolute value below +∞, and the sum over the last axis of the squared entries is above
  zero — for the feature array at every grid position of every batch element, for the support matrix at every row.
  Only the last two are decoded here.  Over the extended reals the sum over the last axis is the initial value 0 plus
  the sum over the 512 entries of the row, the comparison "greater than" that yields the bit 1 is the strict order, and
  the constant compared against is the real number 0; a grid position `(w, h)` of a batch element is the row
  `n = 28 w + h`, so taking `w = n / 28` and `h = n % 28` gives the statement for every row `n < 784`.
-/
import proofs.«170067_j41592463294658_2_alg».proof.Pre_finite_inputs
import proofs.«170067_j41592463294658_2_alg».proof.Proof.Rows
import Idealize.ShloMosaic.Lib.ValueIdx
import Idealize.ShloMosaic.Lib.ReduceAll
import Idealize.ShloMosaic.PureOps.Ideal.Laws

noncomputable section

namespace Cert.PreRows

open Idealize.ShloMosaic Idealize.ShloMosaic.ValueIdx Cert.Pre_finite_inputs Cert.Pre_finite_inputs.Facts

/-- The scalar shape has exactly one index. -/
instance : Subsingleton S_.Idx := ⟨fun a b => funext fun d => d.elim0⟩

/-- A "greater than" comparison of extended reals whose result is the bit 1 is the strict inequality. -/
theorem lt_of_cmp_ogt {x y : EReal} (h : Ideal.cmp .ogt x y = 1#1) : y < x := by
  by_contra hn
  simp [Ideal.cmp, hn] at h

variable [Facts]

/-- The sum over the last axis of the squared support matrix, started from the constant 0, at row `s`: the sum over
    `d < 512` of the squared entry `(s, d)`. -/
theorem support_sum (a1 : FVec Ideal S128x512 .f32) (s : Fin 128) :
    Host.reduceAdd (mulf a1 a1) (constant (F := Ideal) S_ .f32 0x00000000#32) reducesTo_S128x512_S128_d1 h_S_ (ix1 s)
      = ∑ d : Fin 512, a1 (ix2 s d) * a1 (ix2 s d) := by
  simp only [Host.reduceAdd, Ideal.hostReduceAdd_def]
  rw [Ideal.hostReduceAdd_single reducesTo_S128x512_S128_d1 (by decide)]
  rw [constant_apply, Ideal.ofBits_zero_f32, zero_add]
  refine Finset.sum_congr rfl fun k _ => ?_
  rw [mulf_apply]
  -- the index with `k` inserted on the last axis is `(s, k)`, coordinate by coordinate
  exact congrArg (fun j => a1 j * a1 j)
    (funext fun a => Fin.ext (by match a with | ⟨0, _⟩ => rfl | ⟨1, _⟩ => rfl))

/-- The sum over the last axis of the squared feature array, started from the constant 0, at batch element `b` and grid
    position `(w, h)`: the sum over `d < 512` of the squared entry `(b, w, h, d)`. -/
theorem feature_sum (a0 : FVec Ideal S128x28x28x512 .f32) (b : Fin 128) (w h : Fin 28) :
    Host.reduceAdd (mulf a0 a0) (constant (F := Ideal) S_ .f32 0x00000000#32) reducesTo_S128x28x28x512_S128x28x28_d3 h_S_ (ix3 b w h)
      = ∑ d : Fin 512, a0 (ix4 b w h d) * a0 (ix4 b w h d) := by
  simp only [Host.reduceAdd, Ideal.hostReduceAdd_def]
  rw [Ideal.hostReduceAdd_single reducesTo_S128x28x28x512_S128x28x28_d3 (by decide)]
  rw [constant_apply, Ideal.ofBits_zero_f32, zero_add]
  refine Finset.sum_congr rfl fun k _ => ?_
  rw [mulf_apply]
  -- the index with `k` inserted on the last axis is `(b, w, h, k)`, coordinate by coordinate
  exact congrArg (fun j => a0 j * a0 j)
    (funext fun a => Fin.ext (by match a with | ⟨0, _⟩ => rfl | ⟨1, _⟩ => rfl | ⟨2, _⟩ => rfl | ⟨3, _⟩ => rfl))

/-- Under the precondition every row of every batch element of the feature array, and every row of the support matrix,
    has a sum of squares above zero. -/
theorem rows_pos (a0 : FVec Ideal S128x28x28x512 .f32) (a1 : FVec Ideal S128x512 .f32)
    (h : fn (F := Ideal) a0 a1 = (fun _ => 1#1)) :
    (∀ (b : Fin 128) (n : Fin 784), (0 : EReal) < ∑ d : Fin 512, Cert.Rows.featureRows a0 b n d * Cert.Rows.featureRows a0 b n d)
    ∧ (∀ s : Fin 128, (0 : EReal) < ∑ d : Fin 512, Cert.Rows.supportRows a1 s d * Cert.Rows.supportRows a1 s d) := by
  -- the conjunction at its one index: ((finite features ∧ finite support) ∧ feature sums positive) ∧ support sums positive
  have h0 := congrFun h ix0
  dsimp only [fn, fn_part1] at h0
  obtain ⟨h1, hS⟩ := IntOp.andi_eq_one.1 h0
  obtain ⟨_, hF⟩ := IntOp.andi_eq_one.1 h1
  clear h0 h1
  constructor
  · intro b n
    -- the third conjunct at the grid position (n / 28, n % 28) of batch element b
    have e := Host.reduce_andi_all _ _ _ _ ix0 hF
      (ix3 b ⟨n.val / 28, by have := n.isLt; omega⟩ ⟨n.val % 28, Nat.mod_lt _ (by decide)⟩)
    rw [cmpf_apply, Ideal.cmpf_def] at e
    have e' := lt_of_cmp_ogt e
    rw [feature_sum] at e'
    -- the constant compared against is the real number 0
    exact Ideal.ofBits_zero_f32.symm.trans_lt e'
  · intro s
    -- the fourth conjunct at row s
    have e := Host.reduce_andi_all _ _ _ _ ix0 hS (ix1 s)
    rw [cmpf_apply, Ideal.cmpf_def] at e
    have e' := lt_of_cmp_ogt e
    rw [support_sum] at e'
    exact Ideal.ofBits_zero_f32.symm.trans_lt e'

end Cert.PreRows

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KernelSteps.lean ====
/-
  The kernel's Sinkhorn phase, folded into the iteration's own steps and read entry by entry.

  The body keeps the row scaling `u` as a 128 × 1 column and the column scaling `v` as a 1 × 784 row.  A new `v` is the
  column sums of `u` spread over the rows of `K` (times `K`), guarded and divided into the column mass; a new `u` is the
  row sums of `K` times `v` spread over the columns, guarded and divided into the row mass.  The body's arithmetic, cut
  where its pieces hand values on, is ten such trips from the constant column `1`, one more `v`, and the plan
  `(u · K) · v` — the cuts fall inside trips, so each piece is named here by the part of a trip it carries.  Entry by
  entry, at the extended reals, each step is the pure step of the same name.
-/
import proofs.«170067_j41592463294658_2_alg».proof.Proof.Gen.KernelIdeal.Skeleton
import proofs.«170067_j41592463294658_2_alg».proof.Proof.Sinkhorn
import proofs.«170067_j41592463294658_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Steps

open Cert.KernelIdeal Cert.KernelIdeal.Gen Idealize.ShloMosaic Idealize.ShloMosaic.ValueIdx

/-! ## The steps on vectors, at any reading of the floats -/

section Vectors

variable {F : FTy → Type} [FloatOps F]

/-- The initial row scaling: the constant column `1`. -/
def ones : FVec F S128x1 .f32 := broadcast S128x1 (Scalar.ofBits .f32 0x3F800000#32)

/-- `u` spread along the rows of `K`, times `K`: entry `(s, n)` is `u s · K s n`. -/
def weigh (K : FVec F S128x784 .f32) (u : FVec F S128x1 .f32) : FVec F S128x784 .f32 :=
  mulf (broadcastTo S128x784 u broadcasts_S128x1_S128x784) K

/-- The column scaling from a weighted kernel: column mass over (column sum plus guard). -/
def colOf (X : FVec F S128x784 .f32) : FVec F S1x784 .f32 :=
  divf (broadcast S1x784 (Scalar.ofBits .f32 0x3AA72F05#32))
    (addf (shapeCast S1x784 (multiReduction .add [0] S784 X 0x00000000#32 reduces_S128x784_S784 (.inl rfl) rfl) shapeCasts_S784_S1x784)
      (broadcast S1x784 (Scalar.ofBits .f32 0x25800000#32)))

/-- The column scaling from a row scaling. -/
def colStep (K : FVec F S128x784 .f32) (u : FVec F S128x1 .f32) : FVec F S1x784 .f32 := colOf (weigh K u)

/-- Row sums of `K` times `v` spread along the columns, as a column. -/
def rowSum (K : FVec F S128x784 .f32) (v : FVec F S1x784 .f32) : FVec F S128x1 .f32 :=
  shapeCast S128x1 (multiReduction .add [1] S128 (mulf K (broadcastTo S128x784 v broadcasts_S1x784_S128x784)) 0x00000000#32
    reduces_S128x784_S128 (.inl rfl) rfl) shapeCasts_S128_S128x1

/-- A column plus the guard. -/
def guarded (r : FVec F S128x1 .f32) : FVec F S128x1 .f32 := addf r (broadcast S128x1 (Scalar.ofBits .f32 0x25800000#32))

/-- The row mass over a guarded column. -/
def rowOf (g : FVec F S128x1 .f32) : FVec F S128x1 .f32 := divf (broadcast S128x1 (Scalar.ofBits .f32 0x3C000000#32)) g

/-- The row scaling from a column scaling. -/
def rowStep (K : FVec F S128x784 .f32) (v : FVec F S1x784 .f32) : FVec F S128x1 .f32 := rowOf (guarded (rowSum K v))

/-- One trip. -/
def trip (K : FVec F S128x784 .f32) (u : FVec F S128x1 .f32) : FVec F S128x1 .f32 := rowStep K (colStep K u)

/-- The plan from a row scaling, as the block the body stores. -/
def planVec (K : FVec F S128x784 .f32) (u : FVec F S128x1 .f32) : FVec F S1x128x784 .f32 :=
  shapeCast S1x128x784 (mulf (weigh K u) (broadcastTo S128x784 (colStep K u) broadcasts_S1x784_S128x784)) shapeCasts_S128x784_S1x128x784

/-! ### The body's pieces are these steps -/

/-- The first piece ends inside the first trip, before the division: the guarded row sums under the first `v`. -/
theorem pay3_eq (v0 : Vec F S128x512 .f32) (v1 : Vec F S1x784x512 .f32) :
    k0_pay3 v0 v1 = guarded (rowSum (k0_pay2 v0 v1) (colStep (k0_pay2 v0 v1) ones)) := rfl

/-- The second piece finishes that trip, runs two more, and ends on the next `v`. -/
theorem pay4_eq (K : FVec F S128x784 .f32) (g : FVec F S128x1 .f32) :
    k0_pay4 K g (Scalar.ofBits .f32 0x3C000000#32) = colStep K (trip K (trip K (rowOf g))) := rfl

/-- The third piece takes that `v` to its `u`, runs two trips, and ends on the weighted kernel. -/
theorem pay5_eq (K : FVec F S128x784 .f32) (v : FVec F S1x784 .f32) :
    k0_pay5 K v = weigh K (trip K (trip K (rowStep K v))) := rfl

/-- The fourth piece takes the weighted kernel to its `v` and that to its `u`, runs one trip, and ends on the bare row
    sums under the next `v`. -/
theorem pay6_eq (K : FVec F S128x784 .f32) (X : FVec F S128x784 .f32) :
    k0_pay6 K X = rowSum K (colStep K (trip K (rowStep K (colOf X)))) := rfl

/-- The last piece guards and divides those sums, runs the tenth trip, and forms the plan. -/
theorem pay1_eq (K : FVec F S128x784 .f32) (r : FVec F S128x1 .f32) :
    k0_pay1 K r = planVec K (trip K (rowOf (guarded r))) := rfl

/-- Put together: the block the body stores is the plan after ten trips from the constant column `1`. -/
theorem stored_eq (v0 : Vec F S128x512 .f32) (v1 : Vec F S1x784x512 .f32) :
    k0_pay1 (k0_pay2 v0 v1) (k0_pay6 (k0_pay2 v0 v1) (k0_pay5 (k0_pay2 v0 v1)
        (k0_pay4 (k0_pay2 v0 v1) (k0_pay3 v0 v1) (Scalar.ofBits .f32 0x3C000000#32))))
      = planVec (k0_pay2 v0 v1) ((trip (k0_pay2 v0 v1))^[10] ones) := by
  rw [pay3_eq, pay4_eq, pay5_eq, pay6_eq, pay1_eq]
  rfl

end Vectors

/-! ## The steps entry by entry, at the extended reals -/

section Entries

/-- The kernel matrix by entries. -/
def mat (K : FVec Ideal S128x784 .f32) : Fin 128 → Fin 784 → EReal := fun s n => K (ix2 s n)
/-- A column by entries. -/
def col (u : FVec Ideal S128x1 .f32) : Fin 128 → EReal := fun s => u (ix2 s (0 : Fin 1))
/-- A row by entries. -/
def row (v : FVec Ideal S1x784 .f32) : Fin 784 → EReal := fun n => v (ix2 (0 : Fin 1) n)

/-- The sum over the first axis, at column `n`. -/
theorem colSum_apply (X : FVec Ideal S128x784 .f32) (n : Fin 784) :
    multiReduction .add [0] S784 X 0x00000000#32 reduces_S128x784_S784 (.inl rfl) rfl (ix1 n) = ∑ s : Fin 128, X (ix2 s n) := by
  refine (Ideal.multiReduction_add_single X 0x00000000#32 reduces_S128x784_S784 (.inl rfl) rfl (ix1 n)).trans ?_
  exact Finset.sum_congr rfl fun k _ => congrArg X (funext fun a => Fin.ext (by match a with | ⟨0, _⟩ => rfl | ⟨1, _⟩ => rfl))

/-- The sum over the second axis, at row `s`. -/
theorem rowSum_red_apply (X : FVec Ideal S128x784 .f32) (s : Fin 128) :
    multiReduction .add [1] S128 X 0x00000000#32 reduces_S128x784_S128 (.inl rfl) rfl (ix1 s) = ∑ n : Fin 784, X (ix2 s n) := by
  refine (Ideal.multiReduction_add_single X 0x00000000#32 reduces_S128x784_S128 (.inl rfl) rfl (ix1 s)).trans ?_
  exact Finset.sum_congr rfl fun k _ => congrArg X (funext fun a => Fin.ext (by match a with | ⟨0, _⟩ => rfl | ⟨1, _⟩ => rfl))

theorem weigh_apply (K : FVec Ideal S128x784 .f32) (u : FVec Ideal S128x1 .f32) (s : Fin 128) (n : Fin 784) :
    weigh K u (ix2 s n) = u (ix2 s (0 : Fin 1)) * K (ix2 s n) := by
  unfold weigh
  rw [mulf_apply, Keepdims.broadcastTo_a1_ab_apply]

theorem row_colOf (X : FVec Ideal S128x784 .f32) :
    row (colOf X) = fun n => Ideal.div Sinkhorn.colMass ((∑ s : Fin 128, X (ix2 s n)) + Sinkhorn.guard) := by
  funext n
  unfold row colOf
  rw [divf_apply, addf_apply, broadcast_apply, broadcast_apply, shapeCast_a_1a_apply, colSum_apply]
  rfl

/-- The column step is the pure column scaling. -/
theorem row_colStep (K : FVec Ideal S128x784 .f32) (u : FVec Ideal S128x1 .f32) :
    row (colStep K u) = Sinkhorn.colScale (mat K) (col u) := by
  unfold colStep
  rw [row_colOf]
  funext n
  unfold Sinkhorn.colScale mat col
  simp only [weigh_apply]

/-- The row step is the pure row scaling. -/
theorem col_rowStep (K : FVec Ideal S128x784 .f32) (v : FVec Ideal S1x784 .f32) :
    col (rowStep K v) = Sinkhorn.rowScale (mat K) (row v) := by
  funext s
  unfold col rowStep rowOf guarded rowSum
  rw [divf_apply, addf_apply, broadcast_apply, broadcast_apply, Keepdims.shapeCast_a_a1_apply, rowSum_red_apply]
  unfold Sinkhorn.rowScale mat row
  simp only [mulf_apply, broadcastTo_1b_ab_apply]
  rfl

theorem col_trip (K : FVec Ideal S128x784 .f32) (u : FVec Ideal S128x1 .f32) :
    col (trip K u) = Sinkhorn.trip (mat K) (col u) := by
  unfold trip Sinkhorn.trip
  rw [col_rowStep, row_colStep]

theorem col_iterate (K : FVec Ideal S128x784 .f32) (k : ℕ) (u : FVec Ideal S128x1 .f32) :
    col ((trip K)^[k] u) = (Sinkhorn.trip (mat K))^[k] (col u) := by
  induction k generalizing u with
  | zero => rfl
  | succ k ih => rw [Function.iterate_succ_apply, Function.iterate_succ_apply, ih, col_trip]

theorem col_ones : col (ones (F := Ideal)) = fun _ => Sinkhorn.one := rfl

/-- The stored block at `(0, s, n)` is the pure plan's entry. -/
theorem planVec_apply (K : FVec Ideal S128x784 .f32) (u : FVec Ideal S128x1 .f32) (s : Fin 128) (n : Fin 784) :
    planVec K u (ix3 (0 : Fin 1) s n) = Sinkhorn.planOf (mat K) (col u) s n := by
  unfold planVec
  rw [shapeCast_ab_1ab_apply, mulf_apply, weigh_apply, broadcastTo_1b_ab_apply]
  unfold Sinkhorn.planOf
  rw [← row_colStep]
  rfl

/-- So what the body stores, at `(0, s, n)`, is the plan of its kernel matrix. -/
theorem stored_apply (v0 : Vec Ideal S128x512 .f32) (v1 : Vec Ideal S1x784x512 .f32) (s : Fin 128) (n : Fin 784) :
    k0_pay1 (k0_pay2 v0 v1) (k0_pay6 (k0_pay2 v0 v1) (k0_pay5 (k0_pay2 v0 v1)
        (k0_pay4 (k0_pay2 v0 v1) (k0_pay3 v0 v1) (Scalar.ofBits .f32 0x3C000000#32)))) (ix3 (0 : Fin 1) s n)
      = Sinkhorn.plan (mat (k0_pay2 v0 v1)) s n := by
  rw [stored_eq, planVec_apply, col_iterate, col_ones]
  rfl

end Entries

end Cert.KernelIdeal.Steps

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.KernelGram.lean ====
/-
  The kernel's Gibbs matrix, entry by entry.

  The body scales every support row and every feature row of the batch element to unit length by multiplying it with the
  reciprocal root of its sum of squares, takes all inner products of a support row with a feature row in one matrix
  product (contracting the 512 entries; the change to a narrower float format before the product is the identity on the
  extended reals), and forms `exp(-10 · (2 - 2 · cos))`.  Entry `(s, n)` is the pure `gibbs` of the rows.
-/
import proofs.«170067_j41592463294658_2_alg».proof.Proof.Gen.KernelIdeal.Skeleton
import proofs.«170067_j41592463294658_2_alg».proof.Proof.Sinkhorn
import proofs.«170067_j41592463294658_2_alg».proof.Proof.KernelSteps
import proofs.«170067_j41592463294658_2_alg».proof.Proof.LibKeepdims
import proofs.«170067_j41592463294658_2_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Gram

open Cert.KernelIdeal Cert.KernelIdeal.Gen Idealize.ShloMosaic Idealize.ShloMosaic.ValueIdx

/-! ## The pieces on vectors -/

section Vectors

variable {F : FTy → Type} [FloatOps F]

/-- The support rows scaled to unit length. -/
def unitSupport (v0 : FVec F S128x512 .f32) : FVec F S128x512 .f32 :=
  mulf v0 (broadcastTo S128x512 (rsqrt (shapeCast S128x1 (multiReduction .add [1] S128 (mulf v0 v0) 0x00000000#32
    reduces_S128x512_S128 (.inl rfl) rfl) shapeCasts_S128_S128x1)) broadcasts_S128x1_S128x512)

/-- The feature rows, as a matrix, scaled to unit length. -/
def unitFeatures (v2 : FVec F S784x512 .f32) : FVec F S784x512 .f32 :=
  mulf v2 (broadcastTo S784x512 (rsqrt (shapeCast S784x1 (multiReduction .add [1] S784 (mulf v2 v2) 0x00000000#32
    reduces_S784x512_S784 (.inl rfl) rfl) shapeCasts_S784_S784x1)) broadcasts_S784x1_S784x512)

/-- The Gibbs matrix is the exponential of `-10 · (2 - 2 · (unit support rows) · (unit feature rows)ᵀ)`. -/
theorem pay2_eq (v0 : Vec F S128x512 .f32) (v1 : Vec F S1x784x512 .f32) :
    k0_pay2 v0 v1 = exp (mulf (broadcast S128x784 (Scalar.ofBits .f32 0xC1200000#32))
      (subf (broadcast S128x784 (Scalar.ofBits .f32 0x40000000#32))
        (mulf (broadcast S128x784 (Scalar.ofBits .f32 0x40000000#32))
          (matmul dot_S128x512_S784x512_S128x784_1_1_0_0_n_n none (truncf .bf16 (unitSupport v0) bitsLt_bf16_f32)
            (truncf .bf16 (unitFeatures (shapeCast S784x512 v1 shapeCasts_S1x784x512_S784x512)) bitsLt_bf16_f32)
            (constant S128x784 .f32 0x00000000#32))))) := rfl

end Vectors

/-! ## Entry by entry, at the extended reals -/

section Entries

theorem unitSupport_apply (v0 : FVec Ideal S128x512 .f32) (s : Fin 128) (d : Fin 512) :
    unitSupport v0 (ix2 s d) = v0 (ix2 s d) * Ideal.rsqrt (∑ e : Fin 512, v0 (ix2 s e) * v0 (ix2 s e)) := by
  unfold unitSupport
  rw [mulf_apply, Keepdims.broadcastTo_a1_ab_apply]
  show _ * Ideal.rsqrt (shapeCast S128x1 _ shapeCasts_S128_S128x1 (ix2 s (0 : Fin 1))) = _
  rw [Keepdims.shapeCast_a_a1_apply]
  refine congrArg (fun z => v0 (ix2 s d) * Ideal.rsqrt z) ?_
  refine (Ideal.multiReduction_add_single (mulf v0 v0) 0x00000000#32 reduces_S128x512_S128 (.inl rfl) rfl (ix1 s)).trans ?_
  exact Finset.sum_congr rfl fun k _ => congrArg (mulf v0 v0) (funext fun a => Fin.ext (by match a with | ⟨0, _⟩ => rfl | ⟨1, _⟩ => rfl))

theorem unitFeatures_apply (v2 : FVec Ideal S784x512 .f32) (n : Fin 784) (d : Fin 512) :
    unitFeatures v2 (ix2 n d) = v2 (ix2 n d) * Ideal.rsqrt (∑ e : Fin 512, v2 (ix2 n e) * v2 (ix2 n e)) := by
  unfold unitFeatures
  rw [mulf_apply, Keepdims.broadcastTo_a1_ab_apply]
  show _ * Ideal.rsqrt (shapeCast S784x1 _ shapeCasts_S784_S784x1 (ix2 n (0 : Fin 1))) = _
  rw [Keepdims.shapeCast_a_a1_apply]
  refine congrArg (fun z => v2 (ix2 n d) * Ideal.rsqrt z) ?_
  refine (Ideal.multiReduction_add_single (mulf v2 v2) 0x00000000#32 reduces_S784x512_S784 (.inl rfl) rfl (ix1 n)).trans ?_
  exact Finset.sum_congr rfl fun k _ => congrArg (mulf v2 v2) (funext fun a => Fin.ext (by match a with | ⟨0, _⟩ => rfl | ⟨1, _⟩ => rfl))

/-! ### The matrix product's index maps: rows of the left operand against rows of the right, contracting the entries -/

theorem lhs0 (j : S128x784.Idx) (q : dot_S128x512_S784x512_S128x784_1_1_0_0_n_n.contr.Idx) : (dot_S128x512_S784x512_S128x784_1_1_0_0_n_n.lhsIdx j q 0).val = (j 0).val := by
  unfold DotDims.lhsIdx
  rw [dif_neg (show ¬(0 : Fin S128x512.rank) ∈ dot_S128x512_S784x512_S128x784_1_1_0_0_n_n.lhsBatch by decide),
    dif_pos (show (0 : Fin S128x512.rank) ∈ dot_S128x512_S784x512_S128x784_1_1_0_0_n_n.lhsNonContracting by decide)]
  rfl

theorem lhs1 (j : S128x784.Idx) (q : dot_S128x512_S784x512_S128x784_1_1_0_0_n_n.contr.Idx) : (dot_S128x512_S784x512_S128x784_1_1_0_0_n_n.lhsIdx j q 1).val = (q ⟨0, by decide⟩).val :=
  dot_S128x512_S784x512_S128x784_1_1_0_0_n_n.lhsIdx_val_of_single rfl j q

theorem rhs0 (j : S128x784.Idx) (q : dot_S128x512_S784x512_S128x784_1_1_0_0_n_n.contr.Idx) : (dot_S128x512_S784x512_S128x784_1_1_0_0_n_n.rhsIdx j q 0).val = (j 1).val := by
  unfold DotDims.rhsIdx
  rw [dif_neg (show ¬(0 : Fin S784x512.rank) ∈ dot_S128x512_S784x512_S128x784_1_1_0_0_n_n.rhsBatch by decide),
    dif_pos (show (0 : Fin S784x512.rank) ∈ dot_S128x512_S784x512_S128x784_1_1_0_0_n_n.rhsNonContracting by decide)]
  rfl

theorem rhs1 (j : S128x784.Idx) (q : dot_S128x512_S784x512_S128x784_1_1_0_0_n_n.contr.Idx) : (dot_S128x512_S784x512_S128x784_1_1_0_0_n_n.rhsIdx j q 1).val = (q ⟨0, by decide⟩).val :=
  dot_S128x512_S784x512_S128x784_1_1_0_0_n_n.rhsIdx_val_of_single rfl j q

/-- The Gibbs matrix by entries is the pure `gibbs` of the support rows and the block's feature rows. -/
theorem mat_pay2 (v0 : Vec Ideal S128x512 .f32) (v1 : Vec Ideal S1x784x512 .f32) :
    Steps.mat (k0_pay2 v0 v1) = Sinkhorn.gibbs (fun s d => v0 (ix2 s d)) (fun n d => v1 (ix3 (0 : Fin 1) n d)) := by
  funext s n
  rw [pay2_eq]
  unfold Steps.mat Sinkhorn.gibbs
  show Ideal.exp (Sinkhorn.negTen * (Sinkhorn.two - Sinkhorn.two * _)) = _
  refine congrArg (fun z => Ideal.exp (Sinkhorn.negTen * (Sinkhorn.two - Sinkhorn.two * z))) ?_
  refine (Cert.Lib.DotNT.matmul_zero_apply dot_S128x512_S784x512_S128x784_1_1_0_0_n_n rfl rfl lhs0 lhs1 rhs0 rhs1 none _ _ (ix2 s n)).trans ?_
  unfold Sinkhorn.cosine
  refine Finset.sum_congr rfl fun d _ => ?_
  show unitSupport (F := Ideal) v0 (ix2 s d)
    * unitFeatures (F := Ideal) (shapeCast S784x512 v1 shapeCasts_S1x784x512_S784x512) (ix2 n d) = _
  rw [unitSupport_apply, unitFeatures_apply]
  simp only [shapeCast_1ab_ab_apply]

end Entries

end Cert.KernelIdeal.Gram

end
-- ==== Proof.KernelPayload.lean ====
/-
  What the kernel body leaves in its output block.

  The body loads the whole support block and the whole feature block, and stores one whole block; so the output block is
  the body's arithmetic of the two loaded blocks.  That arithmetic is the Gibbs matrix of the rows followed by Sinkhorn's
  iteration, so the block at `(0, s, n)` is the transport plan between the support rows and the block's feature rows.
-/
import proofs.«170067_j41592463294658_2_alg».proof.Proof.Gen.KernelIdeal.Frame
import proofs.«170067_j41592463294658_2_alg».proof.Proof.KernelSteps
import proofs.«170067_j41592463294658_2_alg».proof.Proof.KernelGram
import Idealize.ShloMosaic.Lib.Pipeline.Value

noncomputable section

namespace Cert.KernelIdeal.Payload

open Cert.KernelIdeal Cert.KernelIdeal.Gen Idealize.ShloMosaic Idealize.ShloMosaic.ValueIdx

theorem origin2 : (![0, 0] : Fin 2 → Nat) = fun _ => 0 := funext fun a => by fin_cases a <;> rfl
theorem origin3 : (![0, 0, 0] : Fin 3 → Nat) = fun _ => 0 := funext fun a => by fin_cases a <;> rfl

/-- The output block at `(0, s, n)` is the transport plan's entry `(s, n)`. -/
theorem out_apply (x0 : Vec Ideal S128x512 .f32) (x1 : Vec Ideal S1x784x512 .f32) (s : Fin 128) (n : Fin 784) :
    Gen.out0_2 (F := Ideal) x0 x1 (ix3 (0 : Fin 1) s n)
      = Sinkhorn.transport (fun s d => x0 (ix2 s d)) (fun n d => x1 (ix3 (0 : Fin 1) n d)) s n := by
  unfold Gen.out0_2
  rw [View.canon_unit_zero origin3]
  simp only [View.ld_unit_zero (S := S128x512) origin2, View.ld_unit_zero (S := S1x784x512) origin3]
  rw [Steps.stored_apply, Gram.mat_pay2]
  rfl

end Cert.KernelIdeal.Payload

end
-- ==== Proof.KernelArray.lean ====
/-
  From what each grid point writes to the whole result array.

  The program is one pipelined call on a grid of 128 points `t`, the batch index.  At point `t` the body sees the whole
  support matrix (128 rows of 512 entries) and block `t` of the feature array flattened to 784 rows of 512 entries, and
  writes block `t` — a 128 × 784 slab — of the result.  Given what the body's stored value is as a function `Φ` of its two
  input blocks read as families of rows (`hpay`), the result array after the run is, at index `(b, s, n)`, the value
  `Φ (support rows) (feature rows of batch element b) s n`.

  The steps: the windows' block indices at a point (`index_facts`); the flattened feature array read at an index
  (`features_at`: row-major positions agree, `(b·784 + n)·512 + d = ((b·28 + n/28)·28 + n%28)·512 + d`); each input block
  read at an index (`support_block`, `feature_block`); what a point writes back as a block of the one whole-array
  function (`flushed_eq`); the blocks cover the array, index `(b, s, n)` by point `b` (`covered`); the array and the run
  (`final`, `run_of_payload`).
-/
import proofs.«170067_j41592463294658_2_alg».proof.Proof.Gen.KernelIdeal.Value
import proofs.«170067_j41592463294658_2_alg».proof.Proof.Rows
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx

section Steps

variable (m : (ℓ : Loc nD τ sig) → Buf (Elt Ideal) ℓ)

/-- The result array as one function of the two argument arrays: at `(b, s, n)`, the payload's function `Φ` of the
    support rows and of batch element `b`'s feature rows, at `(s, n)`. -/
abbrev whole (Φ : (Fin 128 → Fin 512 → EReal) → (Fin 784 → Fin 512 → EReal) → Fin 128 → Fin 784 → EReal)
    (a1 : S128x512.Idx → EReal) (a0 : S128x28x28x512.Idx → EReal) : S128x128x784.Idx → EReal :=
  fun i => Φ (Cert.Rows.supportRows a1) (Cert.Rows.featureRows a0 (i 0)) (i 1) (i 2)

/-- The grid has 128 points. -/
theorem point_lt (t : Fin cfg0.N) : t.val < 128 := lt_of_lt_of_eq t.isLt N_0

/-- The windows' block indices at point `t`: the support matrix's is `(0, 0)`, the feature block's and the result
    block's are `(t, 0, 0)`. -/
theorem index_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The flattened feature array at `(b, n, d)` is the feature array at `(b, n / 28, n % 28, d)`: the two row-major
    positions are equal. -/
theorem features_at (c : Dev nD) (b : Fin 128) (n : Fin 784) (d : Fin 512) :
    (V m c main_v0 : S128x784x512.Idx → EReal) (ix3 b n d)
      = Cert.Rows.featureRows (m ((c : Thread nD τ).loc main_arg0)) b n d := by
  have e : (V m c main_v0 : S128x784x512.Idx → EReal)
      = shapeCast S128x784x512 (m ((c : Thread nD τ).loc main_arg0)) shapeCasts_S128x28x28x512_S128x784x512 := by
    dsimp only [Gen.V, Gen.hostOps0]; after_results; rfl
  rw [e]
  unfold Cert.Rows.featureRows
  refine shapeCast_apply _ _ _ _ ?_
  show (S128x28x28x512.rowMajor _).val = (S128x784x512.rowMajor _).val
  rw [Shape.rowMajor_val_three, Shape.rowMajor_val_four]
  show ((b.val * 28 + n.val / 28) * 28 + n.val % 28) * 512 + d.val = (b.val * 784 + n.val) * 512 + d.val
  have := Nat.div_add_mod n.val 28
  omega

/-- The support window's block at any point is the whole support matrix: entry `(s, d)` of the block is row `s`, entry
    `d` (block index `(0, 0)`, so the array coordinate is `0 · 128 + s` and `0 · 512 + d`). -/
theorem support_block (c : Dev nD) (t : Fin cfg0.N) (s : Fin 128) (d : Fin 512) :
    (iblk m c 0 t : Vec Ideal S128x512 .f32) (ix2 s d)
      = Cert.Rows.supportRows (m ((c : Thread nD τ).loc main_arg1)) s d := by
  obtain ⟨e0, e1, -⟩ := index_facts t
  unfold iblk
  rw [View.read_apply]
  show V m c main_arg1 _ = _
  rw [V_main_arg1]
  unfold Cert.Rows.supportRows
  congr 1
  funext a
  apply Fin.ext
  match a with
  | ⟨0, _⟩ => show win0_0.index t (0 : Fin 2) * 128 + 1 * s.val = s.val; rw [e0]; omega
  | ⟨1, _⟩ => show win0_0.index t (1 : Fin 2) * 512 + 1 * d.val = d.val; rw [e1]; omega

/-- The feature window's block at point `t` is batch element `t` of the flattened feature array: entry `(0, n, d)` of
    the block is row `n`, entry `d`, of that batch element (block index `(t, 0, 0)`: the array coordinate on the batch
    axis is `t · 1 + 0`). -/
theorem feature_block (c : Dev nD) (t : Fin cfg0.N) (n : Fin 784) (d : Fin 512) :
    (iblk m c 1 t : Vec Ideal S1x784x512 .f32) (ix3 (0 : Fin 1) n d)
      = Cert.Rows.featureRows (m ((c : Thread nD τ).loc main_arg0)) ⟨t.val, point_lt t⟩ n d := by
  obtain ⟨-, -, e0, e1, e2, -⟩ := index_facts t
  refine Eq.trans ?_ (features_at m c ⟨t.val, point_lt t⟩ n d)
  unfold iblk
  rw [View.read_apply]
  show V m c main_v0 _ = V m c main_v0 _
  congr 1
  funext a
  apply Fin.ext
  match a with
  | ⟨0, _⟩ => show win0_1.index t (0 : Fin 3) * 1 + 1 * 0 = t.val; rw [e0]; omega
  | ⟨1, _⟩ => show win0_1.index t (1 : Fin 3) * 784 + 1 * n.val = n.val; rw [e1]; omega
  | ⟨2, _⟩ => show win0_1.index t (2 : Fin 3) * 512 + 1 * d.val = d.val; rw [e2]; omega

section Payload

variable (Φ : (Fin 128 → Fin 512 → EReal) → (Fin 784 → Fin 512 → EReal) → Fin 128 → Fin 784 → EReal)
  (hpay : ∀ (x0 : Vec Ideal S128x512 .f32) (x1 : Vec Ideal S1x784x512 .f32) (s : Fin 128) (n : Fin 784),
    Gen.out0_2 (F := Ideal) x0 x1 (ix3 (0 : Fin 1) s n)
      = Φ (fun s d => x0 (ix2 s d)) (fun n d => x1 (ix3 (0 : Fin 1) n d)) s n)

include hpay

/-- The body's stored value at an index `y` of the result block whose last two coordinates are `s` and `n` (the first,
    on the unit axis, is 0). -/
theorem stored_at (x0 : Vec Ideal S128x512 .f32) (x1 : Vec Ideal S1x784x512 .f32) (y : S1x128x784.Idx)
    (s : Fin 128) (n : Fin 784) (hs : (y 1).val = s.val) (hn : (y 2).val = n.val) :
    Gen.out0_2 (F := Ideal) x0 x1 y = Φ (fun s d => x0 (ix2 s d)) (fun n d => x1 (ix3 (0 : Fin 1) n d)) s n := by
  have hy : y = ix3 (0 : Fin 1) s n := by
    funext a
    apply Fin.ext
    match a with
    | ⟨0, _⟩ => show (y 0).val = 0; have h : (y 0).val < 1 := (y 0).isLt; omega
    | ⟨1, _⟩ => exact hs
    | ⟨2, _⟩ => exact hn
  rw [hy]
  exact hpay x0 x1 s n

/-- WHAT POINT `t` WRITES BACK is block `t` of `whole Φ` of the argument arrays: the stored value is `Φ` of the two input
    blocks, the support block is the support matrix and the feature block is batch element `t`; an index `(0, s, n)`
    of the block sits at `(t, s, n)` of the array. -/
theorem flushed_eq (c : Dev nD) (t : Fin cfg0.N) :
    (dats m 0 c).flushed 2 t
      = ((cfg0.win 2).blk t).view.read (Elt Ideal)
          (whole Φ (m ((c : Thread nD τ).loc main_arg1)) (m ((c : Thread nD τ).loc main_arg0))) := by
  rw [Value.flushed2]
  obtain ⟨-, -, -, -, -, e0, e1, e2⟩ := index_facts t
  funext j
  have hj1 : (j 1).val < 128 := (j 1).isLt
  have hj2 : (j 2).val < 784 := (j 2).isLt
  have hj0 : (j 0).val < 1 := (j 0).isLt
  refine (stored_at Φ hpay (iblk m c 0 t) (iblk m c 1 t) _ ⟨(j 1).val, hj1⟩ ⟨(j 2).val, hj2⟩ rfl rfl).trans ?_
  have hb0 : (fun s d => (iblk m c 0 t : Vec Ideal S128x512 .f32) (ix2 s d))
      = Cert.Rows.supportRows (m ((c : Thread nD τ).loc main_arg1)) :=
    funext fun s => funext fun d => support_block m c t s d
  have hb1 : (fun n d => (iblk m c 1 t : Vec Ideal S1x784x512 .f32) (ix3 (0 : Fin 1) n d))
      = Cert.Rows.featureRows (m ((c : Thread nD τ).loc main_arg0)) ⟨t.val, point_lt t⟩ :=
    funext fun n => funext fun d => feature_block m c t n d
  rw [hb0, hb1]
  show _ = whole Φ (m ((c : Thread nD τ).loc main_arg1)) (m ((c : Thread nD τ).loc main_arg0))
      (((cfg0.win 2).blk t).view.emb j)
  have h0 : (⟨t.val, point_lt t⟩ : Fin 128) = (((cfg0.win 2).blk t).view.emb j : S128x128x784.Idx) 0 :=
    Fin.ext (by show t.val = win0_2.index t (0 : Fin 3) * 1 + 1 * (j 0).val; rw [e0]; omega)
  have h1 : (⟨(j 1).val, hj1⟩ : Fin 128) = (((cfg0.win 2).blk t).view.emb j : S128x128x784.Idx) 1 :=
    Fin.ext (by show (j 1).val = win0_2.index t (1 : Fin 3) * 128 + 1 * (j 1).val; rw [e1]; omega)
  have h2 : (⟨(j 2).val, hj2⟩ : Fin 784) = (((cfg0.win 2).blk t).view.emb j : S128x128x784.Idx) 2 :=
    Fin.ext (by show (j 2).val = win0_2.index t (2 : Fin 3) * 784 + 1 * (j 2).val; rw [e2]; omega)
  show Φ _ (Cert.Rows.featureRows _ _) _ _ = Φ _ (Cert.Rows.featureRows _ _) _ _
  rw [h0, h1, h2]

omit hpay

/-- An index of the result array is in point `t`'s block iff each coordinate is in the block's range on its axis. -/
theorem mem_block (t : Fin cfg0.N) (i : S128x128x784.Idx) :
    i ∈ ((cfg0.win 2).blk t).view.set ↔ ∀ a : Fin 3, win0_2.index t a * S1x128x784.size a ≤ (i a).val
      ∧ (i a).val < win0_2.index t a * S1x128x784.size a + S1x128x784.size a := by
  show i ∈ ((View.whole main_v1).slice (win0_2.rect t)).set ↔ _
  rw [View.set_slice_whole, Rect.mem_set_unit]
  exact Iff.rfl

/-- THE COVER: index `(b, s, n)` of the result array is in the block of point `b`, which writes back. -/
theorem covered (i : S128x128x784.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 784 := (i 2).isLt
  obtain ⟨t, ht⟩ : ∃ t : Fin cfg0.N, t.val = (i 0).val := ⟨⟨(i 0).val, lt_of_lt_of_eq hi0 N_0.symm⟩, rfl⟩
  obtain ⟨-, -, -, -, -, e0, e1, e2⟩ := index_facts t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 784 ≤ (i 2).val ∧ (i 2).val < win0_2.index t (2 : Fin 3) * 784 + 784; omega

include hpay

/-- THE ARRAY after the run is `whole Φ` of the argument arrays: every point writes its block of it, and the blocks
    cover the array. -/
theorem final (c : Dev nD) :
    (dats m 0 c).arrAt 2 cfg0.N
      = whole Φ (m ((c : Thread nD τ).loc main_arg1)) (m ((c : Thread nD τ).loc main_arg0)) :=
  (dats m 0 c).arrAt_eq_of_cover 2 _ (fun t _ => flushed_eq m Φ hpay c t) covered

end Payload

end Steps

/-- THE RUN with the result array named: at `(b, s, n)` it holds `Φ` of the support rows and of batch element `b`'s
    feature rows, at `(s, n)`; the two arguments are unchanged. -/
theorem run_of_payload
    (Φ : (Fin 128 → Fin 512 → EReal) → (Fin 784 → Fin 512 → EReal) → Fin 128 → Fin 784 → EReal)
    (hpay : ∀ (x0 : Vec Ideal S128x512 .f32) (x1 : Vec Ideal S1x784x512 .f32) (s : Fin 128) (n : Fin 784),
        Gen.out0_2 (F := Ideal) x0 x1 (ix3 (0 : Fin 1) s n)
          = Φ (fun s d => x0 (ix2 s d)) (fun n d => x1 (ix3 (0 : Fin 1) n d)) s n)
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1)
          = (fun i : S128x128x784.Idx =>
              Φ (Cert.Rows.supportRows (m ((c : Thread nD τ).loc main_arg1)))
                (Cert.Rows.featureRows (m ((c : Thread nD τ).loc main_arg0)) (i 0)) (i 1) (i 2))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m Φ hpay c), (h c).2⟩) (Value.run_blocks m ρ)

end Cert.KernelIdeal.Array

end
-- ==== Proof.RefSteps.lean ====
/-
  The reference's Sinkhorn phase, folded into the iteration's own steps and read entry by entry.

  The reference keeps, for all 128 batch elements at once, the row scaling `u` as a 128 × 1 × 128 array and the column
  scaling `v` as 128 × 1 × 784.  A new `v` is the batched product of `u` with `K` (128 × 128 × 784), guarded and
  divided into the column mass; a new `u` is the batched product of `v` with the transposed kernel, guarded and divided
  into the row mass.  Its run is ten such trips from the constant `1`, one more `v`, and the plan `(uᵀ · K) · v`.
  Entry by entry, for each batch element, each step is the pure step of the same name — the product with the transposed
  kernel summing `v n · K s n` where the pure step sums `K s n · v n`.
-/
import proofs.«170067_j41592463294658_2_alg».proof.Proof.Gen.ReferenceIdeal.Read
import proofs.«170067_j41592463294658_2_alg».proof.Proof.Sinkhorn
import Idealize.ShloMosaic.Lib.ValueIdx
import Idealize.ShloMosaic.Lib.Pipeline.Value
import Idealize.ShloMosaic.PureOps.Ideal.Laws

noncomputable section

open scoped BigOperators

namespace Cert.ReferenceIdeal.Steps

open Cert.ReferenceIdeal Cert.ReferenceIdeal.Gen Cert.ReferenceIdeal.Read Idealize.ShloMosaic Idealize.ShloMosaic.ValueIdx
  Idealize.ShloMosaic.StableHlo

/-! ## The steps on arrays, at any reading of the floats -/

section Arrays

variable {F : FTy → Type} [FloatOps F]

/-- The column scalings from the row scalings: column mass over (`u · K` plus guard), batch by batch. -/
def colStep (K : (⟨S128x128x784, .f32⟩ : BufTy).Contents (Elt F)) (u : (⟨S128x1x128, .f32⟩ : BufTy).Contents (Elt F)) : (⟨S128x1x784, .f32⟩ : BufTy).Contents (Elt F) :=
  Host.divf (val_main_v29 (F := F)) (addf (Host.dotGeneral dot_S128x1x128_S128x128x784_S128x1x784_2_1_1_2_0_0 none u K) (val_main_v27 (F := F)))

/-- The row scalings from the column scalings: row mass over (`v · Kᵀ` plus guard), batch by batch. -/
def rowStep (Kt : (⟨S128x784x128, .f32⟩ : BufTy).Contents (Elt F)) (v : (⟨S128x1x784, .f32⟩ : BufTy).Contents (Elt F)) : (⟨S128x1x128, .f32⟩ : BufTy).Contents (Elt F) :=
  Host.divf (val_main_v34 (F := F)) (addf (Host.dotGeneral dot_S128x1x784_S128x784x128_S128x1x128_2_1_1_2_0_0 none v Kt) (val_main_v32 (F := F)))

/-- One trip. -/
def trip (K : (⟨S128x128x784, .f32⟩ : BufTy).Contents (Elt F)) (Kt : (⟨S128x784x128, .f32⟩ : BufTy).Contents (Elt F)) (u : (⟨S128x1x128, .f32⟩ : BufTy).Contents (Elt F)) : (⟨S128x1x128, .f32⟩ : BufTy).Contents (Elt F) :=
  rowStep Kt (colStep K u)

/-! ### The run's stages are these steps: each trip's row scalings from the previous trip's -/

theorem trip1 (x0 : (⟨S128x28x28x512, .f32⟩ : BufTy).Contents (Elt F)) (x1 : (⟨S128x512, .f32⟩ : BufTy).Contents (Elt F)) :
    val_main_v35 (F := F) x0 x1 = trip (val_main_v21 (F := F) x0 x1) (val_main_v25 (F := F) x0 x1) (val_main_v24 (F := F)) := rfl
theorem trip2 (x0 : (⟨S128x28x28x512, .f32⟩ : BufTy).Contents (Elt F)) (x1 : (⟨S128x512, .f32⟩ : BufTy).Contents (Elt F)) :
    val_main_v45 (F := F) x0 x1 = trip (val_main_v21 (F := F) x0 x1) (val_main_v25 (F := F) x0 x1) (val_main_v35 (F := F) x0 x1) := rfl
theorem trip3 (x0 : (⟨S128x28x28x512, .f32⟩ : BufTy).Contents (Elt F)) (x1 : (⟨S128x512, .f32⟩ : BufTy).Contents (Elt F)) :
    val_main_v55 (F := F) x0 x1 = trip (val_main_v21 (F := F) x0 x1) (val_main_v25 (F := F) x0 x1) (val_main_v45 (F := F) x0 x1) := rfl
theorem trip4 (x0 : (⟨S128x28x28x512, .f32⟩ : BufTy).Contents (Elt F)) (x1 : (⟨S128x512, .f32⟩ : BufTy).Contents (Elt F)) :
    val_main_v65 (F := F) x0 x1 = trip (val_main_v21 (F := F) x0 x1) (val_main_v25 (F := F) x0 x1) (val_main_v55 (F := F) x0 x1) := rfl
theorem trip5 (x0 : (⟨S128x28x28x512, .f32⟩ : BufTy).Contents (Elt F)) (x1 : (⟨S128x512, .f32⟩ : BufTy).Contents (Elt F)) :
    val_main_v75 (F := F) x0 x1 = trip (val_main_v21 (F := F) x0 x1) (val_main_v25 (F := F) x0 x1) (val_main_v65 (F := F) x0 x1) := rfl
theorem trip6 (x0 : (⟨S128x28x28x512, .f32⟩ : BufTy).Contents (Elt F)) (x1 : (⟨S128x512, .f32⟩ : BufTy).Contents (Elt F)) :
    val_main_v85 (F := F) x0 x1 = trip (val_main_v21 (F := F) x0 x1) (val_main_v25 (F := F) x0 x1) (val_main_v75 (F := F) x0 x1) := rfl
theorem trip7 (x0 : (⟨S128x28x28x512, .f32⟩ : BufTy).Contents (Elt F)) (x1 : (⟨S128x512, .f32⟩ : BufTy).Contents (Elt F)) :
    val_main_v95 (F := F) x0 x1 = trip (val_main_v21 (F := F) x0 x1) (val_main_v25 (F := F) x0 x1) (val_main_v85 (F := F) x0 x1) := rfl
theorem trip8 (x0 : (⟨S128x28x28x512, .f32⟩ : BufTy).Contents (Elt F)) (x1 : (⟨S128x512, .f32⟩ : BufTy).Contents (Elt F)) :
    val_main_v105 (F := F) x0 x1 = trip (val_main_v21 (F := F) x0 x1) (val_main_v25 (F := F) x0 x1) (val_main_v95 (F := F) x0 x1) := rfl
theorem trip9 (x0 : (⟨S128x28x28x512, .f32⟩ : BufTy).Contents (Elt F)) (x1 : (⟨S128x512, .f32⟩ : BufTy).Contents (Elt F)) :
    val_main_v115 (F := F) x0 x1 = trip (val_main_v21 (F := F) x0 x1) (val_main_v25 (F := F) x0 x1) (val_main_v105 (F := F) x0 x1) := rfl
theorem trip10 (x0 : (⟨S128x28x28x512, .f32⟩ : BufTy).Contents (Elt F)) (x1 : (⟨S128x512, .f32⟩ : BufTy).Contents (Elt F)) :
    val_main_v125 (F := F) x0 x1 = trip (val_main_v21 (F := F) x0 x1) (val_main_v25 (F := F) x0 x1) (val_main_v115 (F := F) x0 x1) := rfl

/-- After the ten trips the row scalings are the tenth iterate. -/
theorem rowScalings_eq (x0 : (⟨S128x28x28x512, .f32⟩ : BufTy).Contents (Elt F)) (x1 : (⟨S128x512, .f32⟩ : BufTy).Contents (Elt F)) :
    val_main_v125 (F := F) x0 x1
      = (trip (val_main_v21 (F := F) x0 x1) (val_main_v25 (F := F) x0 x1))^[10] (val_main_v24 (F := F)) := by
  rw [trip10, trip9, trip8, trip7, trip6, trip5, trip4, trip3, trip2, trip1]
  rfl

/-- The last column scalings are one more step from them. -/
theorem colScalings_eq (x0 : (⟨S128x28x28x512, .f32⟩ : BufTy).Contents (Elt F)) (x1 : (⟨S128x512, .f32⟩ : BufTy).Contents (Elt F)) :
    val_main_v130 (F := F) x0 x1 = colStep (val_main_v21 (F := F) x0 x1) (val_main_v125 (F := F) x0 x1) := rfl

end Arrays

end Cert.ReferenceIdeal.Steps

end
-- ==== Proof.RefEntries.lean ====
/-
  The reference's Sinkhorn phase entry by entry, batch element by batch element.

  For batch element `b` the reference's kernel array restricts to a 128 × 784 matrix, its row scalings to 128 numbers and
  its column scalings to 784 numbers.  A batched product with one contracted axis is, at each entry, a sum over that
  axis; with that, the column step is the pure column scaling and — because the transposed kernel at `(b, n, s)` is the
  kernel at `(b, s, n)` and multiplication commutes — the row step is the pure row scaling.  So the ten trips are the
  tenth iterate of the pure trip, and the result at `(b, s, n)` is the pure plan of batch element `b`'s kernel matrix.
-/
import proofs.«170067_j41592463294658_2_alg».proof.Proof.RefSteps

noncomputable section

open scoped BigOperators

namespace Cert.ReferenceIdeal.Entries

open Cert.ReferenceIdeal Cert.ReferenceIdeal.Gen Cert.ReferenceIdeal.Read Cert.ReferenceIdeal.Steps Idealize.ShloMosaic
  Idealize.ShloMosaic.ValueIdx Idealize.ShloMosaic.StableHlo

/-- Batch element `b`'s kernel matrix. -/
def matAt (K : (⟨S128x128x784, .f32⟩ : BufTy).Contents (Elt Ideal)) (b : Fin 128) : Fin 128 → Fin 784 → EReal :=
  fun s n => K (ix3 b s n)
/-- Batch element `b`'s row scaling. -/
def colAt (u : (⟨S128x1x128, .f32⟩ : BufTy).Contents (Elt Ideal)) (b : Fin 128) : Fin 128 → EReal :=
  fun s => u (ix3 b (0 : Fin 1) s)
/-- Batch element `b`'s column scaling. -/
def rowAt (v : (⟨S128x1x784, .f32⟩ : BufTy).Contents (Elt Ideal)) (b : Fin 128) : Fin 784 → EReal :=
  fun n => v (ix3 b (0 : Fin 1) n)

/-! ## The two batched products as sums over the contracted axis -/

/-- `u · K`, contracting the support axis. -/
theorem dotCol_apply (u : (⟨S128x1x128, .f32⟩ : BufTy).Contents (Elt Ideal)) (K : (⟨S128x128x784, .f32⟩ : BufTy).Contents (Elt Ideal))
    (i : S128x1x784.Idx) :
    Host.dotGeneral (F := Ideal) (φ₁ := .f32) (φ₂ := .f32) dot_S128x1x128_S128x128x784_S128x1x784_2_1_1_2_0_0 none u K i
      = ∑ k : Fin 128, u (lidx_main_v26 i k) * K (ridx_main_v26 i k) := by
  simp only [Host.dotGeneral]
  rw [Ideal.dotGeneral_apply, ← Equiv.sum_comp (ValueIdx.contrEquiv1 dot_S128x1x128_S128x128x784_S128x1x784_2_1_1_2_0_0 128 rfl rfl).symm]
  refine Finset.sum_congr rfl fun k _ => ?_
  have hk := ValueIdx.contrEquiv1_symm_val dot_S128x1x128_S128x128x784_S128x1x784_2_1_1_2_0_0 128 rfl rfl k
  have el : dot_S128x1x128_S128x128x784_S128x1x784_2_1_1_2_0_0.lhsIdx i
      ((ValueIdx.contrEquiv1 dot_S128x1x128_S128x128x784_S128x1x784_2_1_1_2_0_0 128 rfl rfl).symm k) = lidx_main_v26 i k :=
    funext fun a => Fin.ext (by
      match a with
      | ⟨0, _⟩ => exact lhs_main_v26_0 _ _
      | ⟨1, _⟩ => exact lhs_main_v26_1 _ _
      | ⟨2, _⟩ => exact (lhs_main_v26_2 _ _).trans hk)
  have er : dot_S128x1x128_S128x128x784_S128x1x784_2_1_1_2_0_0.rhsIdx i
      ((ValueIdx.contrEquiv1 dot_S128x1x128_S128x128x784_S128x1x784_2_1_1_2_0_0 128 rfl rfl).symm k) = ridx_main_v26 i k :=
    funext fun a => Fin.ext (by
      match a with
      | ⟨0, _⟩ => exact rhs_main_v26_0 _ _
      | ⟨1, _⟩ => exact (rhs_main_v26_1 _ _).trans hk
      | ⟨2, _⟩ => exact rhs_main_v26_2 _ _)
  rw [el, er]

/-- `v · Kᵀ`, contracting the feature axis. -/
theorem dotRow_apply (v : (⟨S128x1x784, .f32⟩ : BufTy).Contents (Elt Ideal)) (Kt : (⟨S128x784x128, .f32⟩ : BufTy).Contents (Elt Ideal))
    (i : S128x1x128.Idx) :
    Host.dotGeneral (F := Ideal) (φ₁ := .f32) (φ₂ := .f32) dot_S128x1x784_S128x784x128_S128x1x128_2_1_1_2_0_0 none v Kt i
      = ∑ k : Fin 784, v (lidx_main_v31 i k) * Kt (ridx_main_v31 i k) := by
  simp only [Host.dotGeneral]
  rw [Ideal.dotGeneral_apply, ← Equiv.sum_comp (ValueIdx.contrEquiv1 dot_S128x1x784_S128x784x128_S128x1x128_2_1_1_2_0_0 784 rfl rfl).symm]
  refine Finset.sum_congr rfl fun k _ => ?_
  have hk := ValueIdx.contrEquiv1_symm_val dot_S128x1x784_S128x784x128_S128x1x128_2_1_1_2_0_0 784 rfl rfl k
  have el : dot_S128x1x784_S128x784x128_S128x1x128_2_1_1_2_0_0.lhsIdx i
      ((ValueIdx.contrEquiv1 dot_S128x1x784_S128x784x128_S128x1x128_2_1_1_2_0_0 784 rfl rfl).symm k) = lidx_main_v31 i k :=
    funext fun a => Fin.ext (by
      match a with
      | ⟨0, _⟩ => exact lhs_main_v31_0 _ _
      | ⟨1, _⟩ => exact lhs_main_v31_1 _ _
      | ⟨2, _⟩ => exact (lhs_main_v31_2 _ _).trans hk)
  have er : dot_S128x1x784_S128x784x128_S128x1x128_2_1_1_2_0_0.rhsIdx i
      ((ValueIdx.contrEquiv1 dot_S128x1x784_S128x784x128_S128x1x128_2_1_1_2_0_0 784 rfl rfl).symm k) = ridx_main_v31 i k :=
    funext fun a => Fin.ext (by
      match a with
      | ⟨0, _⟩ => exact rhs_main_v31_0 _ _
      | ⟨1, _⟩ => exact (rhs_main_v31_1 _ _).trans hk
      | ⟨2, _⟩ => exact rhs_main_v31_2 _ _)
  rw [el, er]

/-! ## The steps -/

/-- The column step, at batch element `b`, is the pure column scaling. -/
theorem rowAt_colStep (K : (⟨S128x128x784, .f32⟩ : BufTy).Contents (Elt Ideal)) (u : (⟨S128x1x128, .f32⟩ : BufTy).Contents (Elt Ideal))
    (b : Fin 128) : rowAt (colStep K u) b = Sinkhorn.colScale (matAt K b) (colAt u b) := by
  funext n
  unfold rowAt colStep Sinkhorn.colScale matAt colAt
  show Ideal.div (val_main_v29 (F := Ideal) (ix3 b (0 : Fin 1) n))
    (Host.dotGeneral (F := Ideal) (φ₁ := .f32) (φ₂ := .f32) dot_S128x1x128_S128x128x784_S128x1x784_2_1_1_2_0_0 none u K (ix3 b (0 : Fin 1) n)
      + val_main_v27 (F := Ideal) (ix3 b (0 : Fin 1) n)) = _
  rw [val_main_v29_apply, val_main_v22_apply, val_main_cst_4_apply, val_main_v27_apply, val_main_cst_7_apply, dotCol_apply]
  refine congrArg (fun z => Ideal.div Sinkhorn.colMass (z + Sinkhorn.guard)) ?_
  refine Finset.sum_congr rfl fun k _ => ?_
  have e1 : lidx_main_v26 (ix3 b (0 : Fin 1) n) k = ix3 b (0 : Fin 1) k :=
    funext fun a => Fin.ext (by match a with | ⟨0, _⟩ => rfl | ⟨1, _⟩ => rfl | ⟨2, _⟩ => rfl)
  have e2 : ridx_main_v26 (ix3 b (0 : Fin 1) n) k = ix3 b k n :=
    funext fun a => Fin.ext (by match a with | ⟨0, _⟩ => rfl | ⟨1, _⟩ => rfl | ⟨2, _⟩ => rfl)
  rw [e1, e2]

/-- The row step against a transposed kernel, at batch element `b`, is the pure row scaling. -/
theorem colAt_rowStep (K : (⟨S128x128x784, .f32⟩ : BufTy).Contents (Elt Ideal)) (Kt : (⟨S128x784x128, .f32⟩ : BufTy).Contents (Elt Ideal))
    (hKt : ∀ (b : Fin 128) (n : Fin 784) (s : Fin 128), Kt (ix3 b n s) = K (ix3 b s n))
    (v : (⟨S128x1x784, .f32⟩ : BufTy).Contents (Elt Ideal)) (b : Fin 128) :
    colAt (rowStep Kt v) b = Sinkhorn.rowScale (matAt K b) (rowAt v b) := by
  funext s
  unfold colAt rowStep Sinkhorn.rowScale matAt rowAt
  show Ideal.div (val_main_v34 (F := Ideal) (ix3 b (0 : Fin 1) s))
    (Host.dotGeneral (F := Ideal) (φ₁ := .f32) (φ₂ := .f32) dot_S128x1x784_S128x784x128_S128x1x128_2_1_1_2_0_0 none v Kt (ix3 b (0 : Fin 1) s)
      + val_main_v32 (F := Ideal) (ix3 b (0 : Fin 1) s)) = _
  rw [val_main_v34_apply, val_main_v23_apply, val_main_cst_5_apply, val_main_v32_apply, val_main_cst_8_apply, dotRow_apply]
  refine congrArg (fun z => Ideal.div Sinkhorn.rowMass (z + Sinkhorn.guard)) ?_
  refine Finset.sum_congr rfl fun k _ => ?_
  have e1 : lidx_main_v31 (ix3 b (0 : Fin 1) s) k = ix3 b (0 : Fin 1) k :=
    funext fun a => Fin.ext (by match a with | ⟨0, _⟩ => rfl | ⟨1, _⟩ => rfl | ⟨2, _⟩ => rfl)
  have e2 : ridx_main_v31 (ix3 b (0 : Fin 1) s) k = ix3 b k s :=
    funext fun a => Fin.ext (by match a with | ⟨0, _⟩ => rfl | ⟨1, _⟩ => rfl | ⟨2, _⟩ => rfl)
  rw [e1, e2, hKt, mul_comm]

theorem colAt_trip (K : (⟨S128x128x784, .f32⟩ : BufTy).Contents (Elt Ideal)) (Kt : (⟨S128x784x128, .f32⟩ : BufTy).Contents (Elt Ideal))
    (hKt : ∀ (b : Fin 128) (n : Fin 784) (s : Fin 128), Kt (ix3 b n s) = K (ix3 b s n))
    (u : (⟨S128x1x128, .f32⟩ : BufTy).Contents (Elt Ideal)) (b : Fin 128) :
    colAt (trip K Kt u) b = Sinkhorn.trip (matAt K b) (colAt u b) := by
  unfold trip Sinkhorn.trip
  rw [colAt_rowStep K Kt hKt, rowAt_colStep]

theorem colAt_iterate (K : (⟨S128x128x784, .f32⟩ : BufTy).Contents (Elt Ideal)) (Kt : (⟨S128x784x128, .f32⟩ : BufTy).Contents (Elt Ideal))
    (hKt : ∀ (b : Fin 128) (n : Fin 784) (s : Fin 128), Kt (ix3 b n s) = K (ix3 b s n))
    (k : ℕ) (u : (⟨S128x1x128, .f32⟩ : BufTy).Contents (Elt Ideal)) (b : Fin 128) :
    colAt ((trip K Kt)^[k] u) b = (Sinkhorn.trip (matAt K b))^[k] (colAt u b) := by
  induction k generalizing u with
  | zero => rfl
  | succ k ih => rw [Function.iterate_succ_apply, Function.iterate_succ_apply, ih, colAt_trip K Kt hKt]

/-- The initial row scalings are the constant `1`. -/
theorem colAt_ones (b : Fin 128) : colAt (val_main_v24 (F := Ideal)) b = fun _ => Sinkhorn.one := by
  funext s
  unfold colAt
  rw [val_main_v24_apply, val_main_cst_6_apply]
  rfl

/-- The transposed kernel at `(b, n, s)` is the kernel at `(b, s, n)`. -/
theorem transposed (x0 : (⟨S128x28x28x512, .f32⟩ : BufTy).Contents (Elt Ideal)) (x1 : (⟨S128x512, .f32⟩ : BufTy).Contents (Elt Ideal))
    (b : Fin 128) (n : Fin 784) (s : Fin 128) :
    val_main_v25 (F := Ideal) x0 x1 (ix3 b n s) = val_main_v21 (F := Ideal) x0 x1 (ix3 b s n) := by
  rw [val_main_v25_apply]
  exact congrArg (val_main_v21 (F := Ideal) x0 x1)
    (funext fun a => Fin.ext (by match a with | ⟨0, _⟩ => rfl | ⟨1, _⟩ => rfl | ⟨2, _⟩ => rfl))

/-! ## The result -/

/-- The reference's result at `(b, s, n)` is the pure plan of batch element `b`'s kernel matrix. -/
theorem result_apply (x0 : (⟨S128x28x28x512, .f32⟩ : BufTy).Contents (Elt Ideal)) (x1 : (⟨S128x512, .f32⟩ : BufTy).Contents (Elt Ideal))
    (b : Fin 128) (s : Fin 128) (n : Fin 784) :
    val_main_v135 (F := Ideal) x0 x1 (ix3 b s n) = Sinkhorn.plan (matAt (val_main_v21 (F := Ideal) x0 x1) b) s n := by
  rw [val_main_v135_apply, val_main_v133_apply, val_main_v132_apply, val_main_v131_apply, val_main_v134_apply]
  have i1 : idx_main_v131 (idx_main_v132 (ix3 b s n)) = ix3 b (0 : Fin 1) s :=
    funext fun a => Fin.ext (by match a with | ⟨0, _⟩ => rfl | ⟨1, _⟩ => rfl | ⟨2, _⟩ => rfl)
  have i2 : idx_main_v134 (ix3 b s n) = ix3 b (0 : Fin 1) n :=
    funext fun a => Fin.ext (by match a with | ⟨0, _⟩ => rfl | ⟨1, _⟩ => rfl | ⟨2, _⟩ => rfl)
  rw [i1, i2, colScalings_eq]
  show (colAt (val_main_v125 (F := Ideal) x0 x1) b s * matAt (val_main_v21 (F := Ideal) x0 x1) b s n)
    * rowAt (colStep (val_main_v21 (F := Ideal) x0 x1) (val_main_v125 (F := Ideal) x0 x1)) b n = _
  rw [rowAt_colStep, rowScalings_eq, colAt_iterate _ _ (transposed x0 x1), colAt_ones]
  rfl

end Cert.ReferenceIdeal.Entries

end
-- ==== Proof.RefGram.lean ====
/-
  The reference's Gibbs array, entry by entry.

  The reference scales every support row and every feature row to unit length by dividing it by the root of its sum of
  squares, flattens the 28 × 28 grid of positions to 784 rows (position `n` is `(n / 28, n % 28)`), takes all inner products
  of a feature row with a support row in one batched product, transposes, and forms `exp(-10 · (2 - 2 · cos))`.  Where every
  row's sum of squares is positive, dividing by the root is multiplying by the reciprocal root, so entry `(b, s, n)` is the
  pure `gibbs` of the support rows and batch element `b`'s feature rows.
-/
import proofs.«170067_j41592463294658_2_alg».proof.Proof.RefEntries
import proofs.«170067_j41592463294658_2_alg».proof.Proof.Rows

noncomputable section

open scoped BigOperators

namespace Cert.ReferenceIdeal.Gram

open Cert.ReferenceIdeal Cert.ReferenceIdeal.Gen Cert.ReferenceIdeal.Read Idealize.ShloMosaic Idealize.ShloMosaic.ValueIdx
  Idealize.ShloMosaic.StableHlo

/-- A support row's entry over the root of the row's sum of squares. -/
theorem support_unit (x1 : (⟨S128x512, .f32⟩ : BufTy).Contents (Elt Ideal)) (s : Fin 128) (d : Fin 512) :
    val_main_v5 (F := Ideal) x1 (ix2 s d)
      = Ideal.div (x1 (ix2 s d)) (Ideal.sqrt (∑ e : Fin 512, x1 (ix2 s e) * x1 (ix2 s e))) := by
  rw [val_main_v5_apply, val_main_v4_apply, val_main_v3_apply, val_main_v2_apply, val_main_v1_apply, val_main_cst_apply]
  have ei : ∀ k : Fin 512, idx_main_v1 (idx_main_v2 (idx_main_v4 (ix2 s d))) k = ix2 s k := fun k =>
    funext fun a => Fin.ext (by match a with | ⟨0, _⟩ => rfl | ⟨1, _⟩ => rfl)
  simp only [ei, val_main_v0_apply, Ideal.hostDivf_def, Ideal.hostUnary_sqrt_def, Ideal.ofBits_def, Ideal.ofBits_zero_f32,
    zero_add, Ideal.mulf_def]

/-- A feature row's entry, at grid position `(w, h)`, over the root of the row's sum of squares. -/
theorem feature_unit (x0 : (⟨S128x28x28x512, .f32⟩ : BufTy).Contents (Elt Ideal)) (b : Fin 128) (w h : Fin 28) (d : Fin 512) :
    val_main_v11 (F := Ideal) x0 (ix4 b w h d)
      = Ideal.div (x0 (ix4 b w h d)) (Ideal.sqrt (∑ e : Fin 512, x0 (ix4 b w h e) * x0 (ix4 b w h e))) := by
  rw [val_main_v11_apply, val_main_v10_apply, val_main_v9_apply, val_main_v8_apply, val_main_v7_apply, val_main_cst_0_apply]
  have ei : ∀ k : Fin 512, idx_main_v7 (idx_main_v8 (idx_main_v10 (ix4 b w h d))) k = ix4 b w h k := fun k =>
    funext fun a => Fin.ext (by match a with | ⟨0, _⟩ => rfl | ⟨1, _⟩ => rfl | ⟨2, _⟩ => rfl | ⟨3, _⟩ => rfl)
  simp only [ei, val_main_v6_apply, Ideal.hostDivf_def, Ideal.hostUnary_sqrt_def, Ideal.ofBits_def, Ideal.ofBits_zero_f32,
    zero_add, Ideal.mulf_def]

/-- Flattening the grid: row `n` of batch element `b` sits at grid position `(n / 28, n % 28)`. -/
theorem flatten_at (b : Fin 128) (n : Fin 784) (d : Fin 512) :
    idx_main_v12 (ix3 b n d)
      = ix4 b ⟨n.val / 28, by have := n.isLt; omega⟩ ⟨n.val % 28, Nat.mod_lt _ (by decide)⟩ d := by
  have hb := b.isLt
  have hn := n.isLt
  have hd := d.isLt
  funext a
  apply Fin.ext
  match a with
  | ⟨0, _⟩ => show ((b.val * 784 + n.val) * 512 + d.val) / 401408 = b.val; omega
  | ⟨1, _⟩ => show ((b.val * 784 + n.val) * 512 + d.val) / 14336 % 28 = n.val / 28; omega
  | ⟨2, _⟩ => show ((b.val * 784 + n.val) * 512 + d.val) / 512 % 28 = n.val % 28; omega
  | ⟨3, _⟩ => show ((b.val * 784 + n.val) * 512 + d.val) % 512 = d.val; omega

/-- A flattened feature row's entry over the root of the row's sum of squares. -/
theorem feature_row_unit (x0 : (⟨S128x28x28x512, .f32⟩ : BufTy).Contents (Elt Ideal)) (b : Fin 128) (n : Fin 784) (d : Fin 512) :
    val_main_v12 (F := Ideal) x0 (ix3 b n d)
      = Ideal.div (Cert.Rows.featureRows x0 b n d)
          (Ideal.sqrt (∑ e : Fin 512, Cert.Rows.featureRows x0 b n e * Cert.Rows.featureRows x0 b n e)) := by
  rw [val_main_v12_apply, flatten_at]
  exact feature_unit x0 b _ _ d

/-- Where every row's sum of squares is positive, batch element `b`'s kernel matrix is the pure `gibbs` of the rows. -/
theorem matAt_gibbs (x0 : (⟨S128x28x28x512, .f32⟩ : BufTy).Contents (Elt Ideal)) (x1 : (⟨S128x512, .f32⟩ : BufTy).Contents (Elt Ideal))
    (b : Fin 128)
    (hf : ∀ n : Fin 784, (0 : EReal) < ∑ d : Fin 512, Cert.Rows.featureRows x0 b n d * Cert.Rows.featureRows x0 b n d)
    (hs : ∀ s : Fin 128, (0 : EReal) < ∑ d : Fin 512, Cert.Rows.supportRows x1 s d * Cert.Rows.supportRows x1 s d) :
    Entries.matAt (val_main_v21 (F := Ideal) x0 x1) b = Sinkhorn.gibbs (Cert.Rows.supportRows x1) (Cert.Rows.featureRows x0 b) := by
  funext s n
  unfold Entries.matAt Sinkhorn.gibbs Sinkhorn.cosine
  rw [val_main_v21_apply, val_main_v20_apply, val_main_v19_apply, val_main_cst_3_apply, val_main_v18_apply, val_main_v17_apply,
    val_main_cst_2_apply, val_main_v16_apply, val_main_v15_apply, val_main_cst_1_apply, val_main_v14_apply, val_main_v13_apply]
  show Ideal.exp (Sinkhorn.negTen * (Sinkhorn.two - Sinkhorn.two * _)) = _
  refine congrArg (fun z => Ideal.exp (Sinkhorn.negTen * (Sinkhorn.two - Sinkhorn.two * z))) ?_
  refine Finset.sum_congr rfl fun d _ => ?_
  have e1 : lidx_main_v13 (idx_main_v14 (ix3 b s n)) d = ix3 b n d :=
    funext fun a => Fin.ext (by match a with | ⟨0, _⟩ => rfl | ⟨1, _⟩ => rfl | ⟨2, _⟩ => rfl)
  have e2 : ridx_main_v13 (idx_main_v14 (ix3 b s n)) d = ix2 s d :=
    funext fun a => Fin.ext (by match a with | ⟨0, _⟩ => rfl | ⟨1, _⟩ => rfl)
  rw [e1, e2, feature_row_unit, support_unit]
  exact Sinkhorn.div_sqrt_mul_div_sqrt _ _ _ _ (hs s) (hf n)

end Cert.ReferenceIdeal.Gram

end
-- ==== Proof.lean ====
/-
  A Sinkhorn transport plan computed two ways.

  Both programs take 128 support rows and, for each of 128 batch elements, 784 feature rows (a 28 × 28 grid of positions,
  flattened), all of 512 entries.  For each batch element they form the Gibbs matrix `K s n = exp(-10 · (2 - 2 · cos))` of
  the cosines between support row `s` and feature row `n`, run ten trips of Sinkhorn's iteration from the row scaling `1`
  (`v = (1/784) / (uᵀK + ε)`, `u = (1/128) / (K v + ε)`), take one more `v`, and return the plan `(u s · K s n) · v n`.

  They differ in three ways, none of which changes a value on the extended reals.  The kernel works one batch element per
  grid point on vectors (sums over an axis, a matrix product with a transposed operand, a change to a narrower float format
  before that product), the reference on whole arrays with batched products: a sum is a sum and a format change is the
  identity.  The reference multiplies `v` by the transposed Gibbs matrix where the kernel multiplies the Gibbs matrix by
  `v`: multiplication commutes.  And the kernel scales a row to unit length by multiplying with the reciprocal root of its
  sum of squares where the reference divides by the root: these agree exactly when the sum of squares is positive (at `0`
  the product is `0 · ∞ = 0` and the quotient is the undefined `0 / 0`), which is what the precondition's last two
  conjuncts state for every feature row and every support row.  Finiteness of the inputs is not used.

  So both result arrays are, at `(b, s, n)`, the pure `Sinkhorn.transport` of the support rows and batch element `b`'s
  feature rows at `(s, n)`.
-/
import proofs.«170067_j41592463294658_2_alg».proof.Defs
import proofs.«170067_j41592463294658_2_alg».proof.Proof.Gen.Kernel
import proofs.«170067_j41592463294658_2_alg».proof.Proof.Gen.Kernel.Skeleton
import proofs.«170067_j41592463294658_2_alg».proof.Proof.Gen.Kernel.Launch
import proofs.«170067_j41592463294658_2_alg».proof.Proof.Gen.Kernel.Points
import proofs.«170067_j41592463294658_2_alg».proof.Proof.Gen.Kernel.Frame
import proofs.«170067_j41592463294658_2_alg».proof.Proof.Gen.KernelIdeal
import proofs.«170067_j41592463294658_2_alg».proof.Proof.Gen.KernelIdeal.Skeleton
import proofs.«170067_j41592463294658_2_alg».proof.Proof.Gen.KernelIdeal.Launch
import proofs.«170067_j41592463294658_2_alg».proof.Proof.Gen.KernelIdeal.Points
import proofs.«170067_j41592463294658_2_alg».proof.Proof.Gen.KernelIdeal.Frame
import proofs.«170067_j41592463294658_2_alg».proof.Proof.Gen.ReferenceIdeal
import proofs.«170067_j41592463294658_2_alg».proof.Proof.Gen.Pre_finite_inputs
import proofs.«170067_j41592463294658_2_alg».proof.Proof.Gen.KernelIdeal.Value
import proofs.«170067_j41592463294658_2_alg».proof.Proof.Gen.ReferenceIdeal.Run
import proofs.«170067_j41592463294658_2_alg».proof.Proof.Gen.ReferenceIdeal.Read
import Idealize.ShloMosaic.Adequacy
import Idealize.ShloMosaic.Init

import proofs.«170067_j41592463294658_2_alg».proof.Proof.Rows
import proofs.«170067_j41592463294658_2_alg».proof.Proof.Sinkhorn
import proofs.«170067_j41592463294658_2_alg».proof.Proof.PreRows
import proofs.«170067_j41592463294658_2_alg».proof.Proof.KernelPayload
import proofs.«170067_j41592463294658_2_alg».proof.Proof.KernelArray
import proofs.«170067_j41592463294658_2_alg».proof.Proof.RefEntries
import proofs.«170067_j41592463294658_2_alg».proof.Proof.RefGram

noncomputable section

namespace Cert.Proof

open Idealize.ShloMosaic Idealize.ShloMosaic.ValueIdx Idealize.SL.Sem

/-- The kernel at the word level runs to the end and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Both programs end with the transport plan of every batch element: the kernel block by block, the reference as one
    array whose entry `(b, s, n)` is read through its stages; the two forms of a unit row meet under the positivity of
    every row's sum of squares. -/
theorem algebraic : Cert.algebraic_KernelIdeal_ReferenceIdeal := by
  intro m ρ m' ρ' hpre hagree
  refine ⟨_, Cert.KernelIdeal.Array.run_of_payload Cert.Sinkhorn.transport Cert.KernelIdeal.Payload.out_apply m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v135_eq, (hagree c).1, (hagree c).2]
  obtain ⟨hf, hs⟩ := Cert.PreRows.rows_pos _ _ (hpre c)
  funext i
  obtain ⟨b, s, n, rfl⟩ : ∃ (b : Fin 128) (s : Fin 128) (n : Fin 784), i = ix3 b s n := ⟨i 0, i 1, i 2, eq_ix3 i⟩
  rw [Cert.ReferenceIdeal.Entries.result_apply, Cert.ReferenceIdeal.Gram.matAt_gibbs _ _ b (hf b) hs]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
